-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S_ : Shape := ⟨0, ![]⟩
abbrev S256 : Shape := ⟨1, ![256]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  reducesTo_S_S_d : S_.ReducesTo [] S_

variable [Facts]

def fn_part1 {F : FTy → Type} [FloatOps F] (main_arg4 : FVec F S4096x4096 .f32) (main_arg5 : FVec F S_ .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S256x4096 .f32) (main_arg1 : FVec F S256x4096 .f32) (main_arg2 : FVec F S256x4096 .f32) (main_arg3 : FVec F S256x4096 .f32) (main_arg4 : FVec F S4096x4096 .f32) (main_arg5 : FVec F S_ .f32) (main_arg6 : IVec S256 32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_v13 main_v16
-- ==== Kernel.lean ====
abbrev S256x4096 : Shape := ⟨2, ![256, 4096]⟩
abbrev S4096x4096 : Shape := ⟨2, ![4096, 4096]⟩
abbrev S_ : Shape := ⟨0, ![]⟩
abbrev S256 : Shape := ⟨1, ![256]⟩
abbrev S1024x1024 : Shape := ⟨2, ![1024, 1024]⟩
abbrev S256x1024 : Shape := ⟨2, ![256, 1024]⟩
abbrev S256x1 : Shape := ⟨2, ![256, 1]⟩

abbrev nBuf : Space → Nat
  | .hbm => 58
  | .vmem => 23
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S_, .f32⟩
  | .hbm, ⟨6, _⟩ => ⟨S256, .i32⟩
  | .hbm, ⟨7, _⟩ => ⟨S256x4096, .f32⟩
  | .hbm, ⟨8, _⟩ => ⟨S256x4096, .f32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S256x4096, .f32⟩
  | .hbm, ⟨18, _⟩ => ⟨S256x4096, .f32⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256x4096, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .i1⟩
  | .hbm, ⟨38, _⟩ => ⟨S_, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .i1⟩
  | .hbm, ⟨51, _⟩ => ⟨S_, .f32⟩
  | .hbm, ⟨52, _⟩ => ⟨S_, .i1⟩
  | .hbm, ⟨53, _⟩ => ⟨S256, .i1⟩
  | .hbm, ⟨54, _⟩ => ⟨S256, .i1⟩
  | .hbm, ⟨55, _⟩ => ⟨S256, .f32⟩
  | .hbm, ⟨56, _⟩ => ⟨S256x1, .f32⟩
  | .hbm, ⟨57, _⟩ => ⟨S4096x4096, .f32⟩
  | .local _ .vmem, ⟨0, _⟩ => ⟨S256x4096, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x4096, .f32⟩
  | .local _ .vmem, ⟨11, _⟩ => ⟨S256x4096, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  ![0, v2.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S256x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  natLt_1_32 : 1 < 32
  bcast_S_S256 : S_.BroadcastsInDim S256 (![] : Fin 0 → Fin S256.rank)
  bcast_S256_S256x1_0 : S256.BroadcastsInDim S256x1 (![0] : Fin 1 → Fin S256x1.rank)
  reducesTo_S256x4096_S256_d1 : S256x4096.ReducesTo [1] S256
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  bitsLt_bf16_f32 : FTy.bits .bf16 < FTy.bits .f32
  dot_S256x1024_S1024x1024_S256x1024_1_1_0_0_n_n_wf : DotDims.WF S256x1024 S1024x1024 S256x1024 [1] [1] [0] [0] [] []
  gather_S256x4096_S256x1_S256x4096_1_0_n_n_0_1_14096_wf : GatherDims.WF S256x4096 S256x1 S256x4096 [1] [0] [] [0] [] 1 ![1, 4096]
  dot_S256x1024_S256x1024_S1024x1024_0_0_1_1_n_n_wf : DotDims.WF S256x1024 S256x1024 S1024x1024 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S256x1024.size a ≤ S256x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .f32 = 32 ∨ (Rect.block (s := S256x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x4096.size a
  hwx0_3 : ∀ i : grid0.Coords, EltTy.bits .f32 = 32 ∨ (Rect.block (s := S256x4096) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x4096.size a
  hwx0_4 : ∀ i : grid0.Coords, EltTy.bits .f32 = 32 ∨ (Rect.block (s := S256x4096) S256x1024.size (cc0_transform_4 i) (hinb0_4 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S256x1024.size a ≤ S256x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .f32 = 32 ∨ (Rect.block (s := S256x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x4096.size a
  hwx1_1 : ∀ i : grid1.Coords, EltTy.bits .f32 = 32 ∨ (Rect.block (s := S256x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x4096.size a
  hwx1_2 : ∀ i : grid1.Coords, EltTy.bits .f32 = 32 ∨ (Rect.block (s := S256x4096) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x4096.size a
  hwx1_3 : ∀ i : grid1.Coords, EltTy.bits .f32 = 32 ∨ (Rect.block (s := S256x4096) S256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S256x4096.size a
  hwx1_4 : ∀ i : grid1.Coords, EltTy.bits .f32 = 32 ∨ (Rect.block (s := S256x4096) S256x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x4096.size a
  hwx1_6 : ∀ i : grid1.Coords, EltTy.bits .f32 = 32 ∨ (Rect.block (s := S4096x4096) S1024x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S4096x4096.size a
  hwx1_7 : ∀ i : grid1.Coords, EltTy.bits .f32 = 32 ∨ (Rect.block (s := S4096x4096) S1024x1024.size (cc1_transform_7 i) (hinb1_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def gather_S256x4096_S256x1_S256x4096_1_0_n_n_0_1_14096 : GatherDims S256x4096 S256x1 S256x4096 where
  offsetDims := [1]
  collapsedSliceDims := [0]
  operandBatchingDims := []
  startIndicesBatchingDims := []
  startIndexMap := [0]
  indexVectorDim := 1
  sliceSizes := ![1, 4096]
  wf := gather_S256x4096_S256x1_S256x4096_1_0_n_n_0_1_14096_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_arg0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S1024x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S256x4096 : Shape := ⟨2, ![256, 4096]⟩
abbrev S4096x4096 : Shape := ⟨2, ![4096, 4096]⟩
abbrev S_ : Shape := ⟨0, ![]⟩
abbrev S256 : Shape := ⟨1, ![256]⟩
abbrev S256x1 : Shape := ⟨2, ![256, 1]⟩

abbrev nBuf : Space → Nat
  | .hbm => 95
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S_, .f32⟩
  | .hbm, ⟨6, _⟩ => ⟨S256, .i32⟩
  | .hbm, ⟨7, _⟩ => ⟨S_, .f32⟩
  | .hbm, ⟨8, _⟩ => ⟨S256x4096, .f32⟩
  | .hbm, ⟨9, _⟩ => ⟨S256x4096, .f32⟩
  | .hbm, ⟨10, _⟩ => ⟨S4096x4096, .f32⟩
  | .hbm, ⟨11, _⟩ => ⟨S256x4096, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .i1⟩
  | .hbm, ⟨16, _⟩ => ⟨S256x4096, .f32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256x4096, .f32⟩
  | .hbm, ⟨26, _⟩ => ⟨S256x4096, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256x4096, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .i1⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256x4096, .f32⟩
  | .hbm, ⟨58, _⟩ => ⟨S256x4096, .f32⟩
  | .hbm, ⟨59, _⟩ => ⟨S_, .f32⟩
  | .hbm, ⟨60, _⟩ => ⟨S256x4096, .f32⟩
  | .hbm, ⟨61, _⟩ => ⟨S256x4096, .f32⟩
  | .hbm, ⟨62, _⟩ => ⟨S256x4096, .f32⟩
  | .hbm, ⟨63, _⟩ => ⟨S_, .f32⟩
  | .hbm, ⟨64, _⟩ => ⟨S256x4096, .f32⟩
  | .hbm, ⟨65, _⟩ => ⟨S256x4096, .f32⟩
  | .hbm, ⟨66, _⟩ => ⟨S_, .f32⟩
  | .hbm, ⟨67, _⟩ => ⟨S256x4096, .f32⟩
  | .hbm, ⟨68, _⟩ => ⟨S256x4096, .f32⟩
  | .hbm, ⟨69, _⟩ => ⟨S_, .f32⟩
  | .hbm, ⟨70, _⟩ => ⟨S256x4096, .f32⟩
  | .hbm, ⟨71, _⟩ => ⟨S256x4096, .f32⟩
  | .hbm, ⟨72, _⟩ => ⟨S256x4096, .f32⟩
  | .hbm, ⟨73, _⟩ => ⟨S_, .f32⟩
  | .hbm, ⟨74, _⟩ => ⟨S256, .f32⟩
  | .hbm, ⟨75, _⟩ => ⟨S256, .i1⟩
  | .hbm, ⟨76, _⟩ => ⟨S_, .f32⟩
  | .hbm, ⟨77, _⟩ => ⟨S_, .i1⟩
  | .hbm, ⟨78, _⟩ => ⟨S256, .i1⟩
  | .hbm, ⟨79, _⟩ => ⟨S256, .i1⟩
  | .hbm, ⟨80, _⟩ => ⟨S256, .f32⟩
  | .hbm, ⟨81, _⟩ => ⟨S256x1, .f32⟩
  | .hbm, ⟨82, _⟩ => ⟨S256x1, .f32⟩
  | .hbm, ⟨83, _⟩ => ⟨S256x4096, .f32⟩
  | .hbm, ⟨84, _⟩ => ⟨S256x4096, .f32⟩
  | .hbm, ⟨85, _⟩ => ⟨S256x4096, .f32⟩
  | .hbm, ⟨86, _⟩ => ⟨S256x4096, .f32⟩
  | .hbm, ⟨87, _⟩ => ⟨S4096x4096, .f32⟩
  | .hbm, ⟨88, _⟩ => ⟨S_, .f32⟩
  | .hbm, ⟨89, _⟩ => ⟨S4096x4096, .f32⟩
  | .hbm, ⟨90, _⟩ => ⟨S4096x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_16 : Ref sig .tc := ⟨.hbm, 73, rfl⟩
abbrev main_v44 : Ref sig .tc := ⟨.hbm, 74, rfl⟩
abbrev main_v45 : Ref sig .tc := ⟨.hbm, 75, rfl⟩
abbrev main_cst_17 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_18 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S256x4096 : S_.BroadcastsInDim S256x4096 (![] : Fin 0 → Fin S256x4096.rank)
  transposes_S4096x4096_S4096x4096_1_0 : S4096x4096.Transposes [1, 0] S4096x4096
  bcast_S_S256 : S_.BroadcastsInDim S256 (![] : Fin 0 → Fin S256.rank)
  bcast_S256_S256x1_0 : S256.BroadcastsInDim S256x1 (![0] : Fin 1 → Fin S256x1.rank)
  reducesTo_S256x4096_S256_d1 : S256x4096.ReducesTo [1] S256
  h_S_ : 0 < S_.numel
  bcast_S256x1_S256x4096_0_1 : S256x1.BroadcastsInDim S256x4096 (![0, 1] : Fin 2 → Fin S256x4096.rank)
  bcast_S_S4096x4096 : S_.BroadcastsInDim S4096x4096 (![] : Fin 0 → Fin S4096x4096.rank)
  dot_S256x4096_S4096x4096_S256x4096_1_0_0_1_n_n_wf : DotDims.WF S256x4096 S4096x4096 S256x4096 [1] [0] [0] [1] [] []
  gather_S256x4096_S256x1_S256x4096_1_0_n_n_0_1_14096_wf : GatherDims.WF S256x4096 S256x1 S256x4096 [1] [0] [] [0] [] 1 ![1, 4096]
  dot_S256x4096_S256x4096_S4096x4096_0_0_1_1_n_n_wf : DotDims.WF S256x4096 S256x4096 S4096x4096 [0] [0] [1] [1] [] []

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf
def gather_S256x4096_S256x1_S256x4096_1_0_n_n_0_1_14096 : GatherDims S256x4096 S256x1 S256x4096 where
  offsetDims := [1]
  collapsedSliceDims := [0]
  operandBatchingDims := []
  startIndicesBatchingDims := []
  startIndexMap := [0]
  indexVectorDim := 1
  sliceSizes := ![1, 4096]
  wf := gather_S256x4096_S256x1_S256x4096_1_0_n_n_0_1_14096_wf
def dot_S256x4096_S256x4096_S4096x4096_0_0_1_1_n_n : DotDims S256x4096 S256x4096 S4096x4096 where
  lhsContracting := [0]
  rhsContracting := [0]
  lhsNonContracting := [1]
  rhsNonContracting := [1]
  lhsBatch := []
  rhsBatch := []
  wf := dot_S256x4096_S256x4096_S4096x4096_0_0_1_1_n_n_wf

class Facts : Prop extends Facts₀ where

variable [Facts]
-- ==== Proof.KR0Base.lean ====
/-
  The first pallas_call (the membrane step): what its frame argument is stated over.

  The grid is 4 x 4, the point (n, l) at position t = 4 n + l. The body keeps a running sum in a scratch block:
  at l = 0 it zeroes the block, at every l it adds the product of column tile l of x with tile (n, l) of W, and at
  l = 3 it computes the two results (spikes, surrogate) from the membrane tile n and the finished sum. So there are
  three kinds of point: l = 0 (zero, then add), l = 1, 2 (add) and l = 3 (add, then emit). Everything is stated at
  the buffer contents `V` the region is entered with, and for any float instance.
-/
import proofs.«178930_j11708080849226_2_alg».proof.Proof.Gen.Kernel.Launch
import proofs.«178930_j11708080849226_2_alg».proof.Proof.Gen.Kernel.Skeleton
import proofs.«178930_j11708080849226_2_alg».proof.Proof.Gen.Kernel.Points
import Idealize.ShloMosaic.Lib.Pipeline.FrameBody
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window (the whole array, moved in once, at the first point) holds its block at every point: where it is
    not fetched its block index has not moved, so the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The W window (tile (n, l), moved in at every point) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The membrane window (tile n, moved in when l = 0) holds its block at every point: for l > 0 the tile index is
    the one of the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first column tile" (l = 0), as the body computes it from the second grid coordinate. -/
abbrev cond0_0 (i : grid0.Coords) : Prop := (Scalar.cmpi .ne (Scalar.extui (Scalar.cmpi .eq (BitVec.ofNat 32 (i 1).val) 0#32)) 0#32) = 1#1
/-- It holds exactly at the positions t with t % 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last column tile" (l = 3). -/
abbrev cond0_1 (i : grid0.Coords) : Prop := k0_cond2 i = 1#1
/-- It holds exactly at the positions t with t % 4 = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where a window is idle

The three inputs are read at every point. The two results are stored only when l = 3; at the other points the body
does not touch their buffers and the pipeline does not write them back. -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called on -/

/-- One staging buffer of each result window, through which its contents are stated (the choice does not matter:
    what is read back after covering stores is the same through any view). -/
abbrev VO0_3 : View sig .tc .vmem S256x1024 .f32 := (Memref.whole cc0_stg3_0 : Memref sig .tc .vmem S256x1024 .f32).view
abbrev VO0_4 : View sig .tc .vmem S256x1024 .f32 := (Memref.whole cc0_stg4_0 : Memref sig .tc .vmem S256x1024 .f32).view

/-- Each window's current staging memref at point `t`, as the pipeline passes it to the body, and that it is a whole buffer. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)

/-- The running-sum block: a whole scoped buffer of the kernel's own, passed beside the windows. -/
abbrev scM0 : Memref sig .tc .vmem S256x1024 .f32 := Memref.whole cc0_scratch0
/-- The same as a view: what the block holds is stated through it. -/
abbrev VS0 : View sig .tc .vmem S256x1024 .f32 := scM0.view

/-- What the launch hands the region besides the windows: the running-sum block at some contents, the core's other
    scoped buffers that are no staging buffer of this call (the second call's staging buffers: carried unopened),
    and the generator register at some state. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]; try rfl

end Cert.Kernel.Hand

end
-- ==== Proof.KR0RunA.lean ====
/-
  The membrane step's body at a point with l = 0: the running-sum block is zeroed, then the first product is added.
-/
import proofs.«178930_j11708080849226_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point where l = 0. On whole staging memrefs — x, the W tile and the membrane tile at their
    contents, the two result buffers (not touched here) at contents handed back as they were, the running-sum block at
    anything — it runs to a continuation that holds the inputs and the result buffers unchanged and the running-sum
    block with the listed stores written (last store first). The lists are found by running the body. -/
noncomputable def kernelRun0_A (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KR0RunB.lean ====
/-
  The membrane step's body at a point with l = 1 or l = 2: one more product is added to the running sum.
-/
import proofs.«178930_j11708080849226_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point where l is neither 0 nor 3. On whole staging memrefs — x, the W tile and the membrane tile at
    their contents, the two result buffers (not touched here) at contents handed back as they were, the running-sum
    block at what the point before left (`xs`) — it runs to a continuation that holds the inputs and the result
    buffers unchanged and the running-sum block with the listed stores written (last store first). -/
noncomputable def kernelRun0_B (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KR0RunC.lean ====
/-
  The membrane step's body at a point with l = 3: the last product is added, then the two results are computed
  from the membrane tile and the finished sum and stored.
-/
import proofs.«178930_j11708080849226_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point where l = 3. On whole staging memrefs — x, the W tile and the membrane tile at their
    contents, the two result buffers at anything, the running-sum block at what the point before left (`xs`) — it
    runs to a continuation that holds the inputs unchanged and each result buffer and the running-sum block with the
    listed stores written (last store first). -/
noncomputable def kernelRun0_C (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) :
    Σ' (L3 : List (View.Piece (Elt F) S256x1024 .f32)) (L4 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨?_, ?_, ?_, fun E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.KR0Frame.lean ====
/-
  The first pallas_call (the membrane step): its frame half.

  What each kind of point leaves in the two result buffers and in the running-sum block; what they hold after every
  point, by recursion on the position (the running sum after a point with l > 0 is computed from the running sum the
  point before left); the invariant that carries the running-sum block from point to point; the pipeline's proof
  data; and the body obligation at every point, by cases on l.
-/
import proofs.«178930_j11708080849226_2_alg».proof.Proof.KR0RunA
import proofs.«178930_j11708080849226_2_alg».proof.Proof.KR0RunB
import proofs.«178930_j11708080849226_2_alg».proof.Proof.KR0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- At a point with l = 0 nothing is stored into the spikes buffer: no pieces — a placeholder (junk read back) that
    nothing consults, since at these points the window is neither written back nor read at the next point. -/
def out0_A_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) : Vec F S256x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- The same for the surrogate buffer. -/
def out0_A_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) : Vec F S256x1024 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- The stores into the running-sum block at a point with l = 0 cover it. -/
theorem scover0_A (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) (y : S256x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S256x1024.size (by sl_kernel_rfl) y

/-- What the running-sum block holds after a point with l = 0: the stores read back over junk. -/
def sout0_A (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) : Vec F S256x1024 .f32 :=
  VS0.read (Elt F) (VS0.writes (Elt F) VS0.junk (kernelRun0_A c i arg2 harg2 arg3 harg3 arg4 harg4 arg5 harg5 arg6 harg6 arg7 harg7 hc0 hc1 x0 x1 x2).2.2.1)

/-- At a point with l = 1 or 2 nothing is stored into the spikes buffer: no pieces — a placeholder (junk read back) that
    nothing consults, since at these points the window is neither written back nor read at the next point. -/
def out0_B_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) : Vec F S256x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs).1)

/-- The same for the surrogate buffer. -/
def out0_B_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) : Vec F S256x1024 .f32 :=
  VO0_4.read (Elt F) (VO0_4.writes (Elt F) VO0_4.junk (kernelRun0_B c i arg2 harg2 arg3 harg3 arg4 harg4 arg5 harg5 arg6 harg6 arg7 harg7 hc0 hc1 x0 x1 x2 xs).2.1)

/-- The stores into the running-sum block at a point with l = 1 or 2 cover it. -/
theorem scover0_B (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) (y : S256x1024.Idx) :
    ∃ pc ∈ (kernelRun0_B c i arg2 harg2 arg3 harg3 arg4 harg4 arg5 harg5 arg6 harg6 arg7 harg7 hc0 hc1 x0 x1 x2 xs).2.2.1, y ∈ pc.1.set :=
  View.cover_of_tiledL (kernelRun0_B c i arg2 harg2 arg3 harg3 arg4 harg4 arg5 harg5 arg6 harg6 arg7 harg7 hc0 hc1 x0 x1 x2 xs).2.2.1 S256x1024.size (by sl_kernel_rfl) y

/-- What the running-sum block holds after a point with l = 1 or 2: the stores read back over junk. -/
def sout0_B (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) : Vec F S256x1024 .f32 :=
  VS0.read (Elt F) (VS0.writes (Elt F) VS0.junk (kernelRun0_B c i arg2 harg2 arg3 harg3 arg4 harg4 arg5 harg5 arg6 harg6 arg7 harg7 hc0 hc1 x0 x1 x2 xs).2.2.1)

/-- At a point with l = 3 the store into the spikes buffer covers it. -/
theorem cover0_C_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) (y : S256x1024.Idx) :
    ∃ pc ∈ (kernelRun0_C c i arg2 harg2 arg3 harg3 arg4 harg4 arg5 harg5 arg6 harg6 arg7 harg7 hc0 hc1 x0 x1 x2 xs).1, y ∈ pc.1.set :=
  View.cover_of_tiledL (kernelRun0_C c i arg2 harg2 arg3 harg3 arg4 harg4 arg5 harg5 arg6 harg6 arg7 harg7 hc0 hc1 x0 x1 x2 xs).1 S256x1024.size (by sl_kernel_rfl) y

/-- What the spikes buffer holds after a point with l = 3: the stores read back over junk. -/
def out0_C_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) : Vec F S256x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs).1)

/-- At a point with l = 3 the store into the surrogate buffer covers it. -/
theorem cover0_C_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) (y : S256x1024.Idx) :
    ∃ pc ∈ (kernelRun0_C c i arg2 harg2 arg3 harg3 arg4 harg4 arg5 harg5 arg6 harg6 arg7 harg7 hc0 hc1 x0 x1 x2 xs).2.1, y ∈ pc.1.set :=
  View.cover_of_tiledL (kernelRun0_C c i arg2 harg2 arg3 harg3 arg4 harg4 arg5 harg5 arg6 harg6 arg7 harg7 hc0 hc1 x0 x1 x2 xs).2.1 S256x1024.size (by sl_kernel_rfl) y

/-- What the surrogate buffer holds after a point with l = 3: the stores read back over junk. -/
def out0_C_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) : Vec F S256x1024 .f32 :=
  VO0_4.read (Elt F) (VO0_4.writes (Elt F) VO0_4.junk (kernelRun0_C c i arg2 harg2 arg3 harg3 arg4 harg4 arg5 harg5 arg6 harg6 arg7 harg7 hc0 hc1 x0 x1 x2 xs).2.1)

/-- The stores into the running-sum block at a point with l = 3 cover it. -/
theorem scover0_C (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) (y : S256x1024.Idx) :
    ∃ pc ∈ (kernelRun0_C c i arg2 harg2 arg3 harg3 arg4 harg4 arg5 harg5 arg6 harg6 arg7 harg7 hc0 hc1 x0 x1 x2 xs).2.2.1, y ∈ pc.1.set :=
  View.cover_of_tiledL (kernelRun0_C c i arg2 harg2 arg3 harg3 arg4 harg4 arg5 harg5 arg6 harg6 arg7 harg7 hc0 hc1 x0 x1 x2 xs).2.2.1 S256x1024.size (by sl_kernel_rfl) y

/-- What the running-sum block holds after a point with l = 3: the stores read back over junk. -/
def sout0_C (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) : Vec F S256x1024 .f32 :=
  VS0.read (Elt F) (VS0.writes (Elt F) VS0.junk (kernelRun0_C c i arg2 harg2 arg3 harg3 arg4 harg4 arg5 harg5 arg6 harg6 arg7 harg7 hc0 hc1 x0 x1 x2 xs).2.2.1)

/-! ## What the buffers hold after each point -/

/-- What the spikes buffer, the surrogate buffer and the running-sum block hold after the body at position `n`:
    the kind of point is read off `n % 4`; a point with l > 0 starts from the running sum the point before left.
    (The combination "l = 0 and l = 3" meets no point.) -/
def outsAt0 (c : Dev nD) : (n : ℕ) → n < cfg0.N → Vec F S256x1024 .f32 × Vec F S256x1024 .f32 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at a point with l = 0. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point with l = 1 or 2: over the running sum the point before left. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with l = 3: over the running sum the point before left. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the first point what the launch hands over (the running-sum block at anything); later the
    running-sum block at what the point before left, the core's other scoped buffers untouched, and the generator
    register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

/-- After point `n`: the running-sum block at that point's contents. -/
theorem PhiS_succ (c : Dev nD) (n : ℕ) (hn : n < cfg0.N) :
    PhiS V c (n + 1) hn = iprop((owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl

/-- Before a point that is not the first: the running-sum block at what the point before left. -/
theorem PhiS_pos (c : Dev nD) (n : ℕ) (h : n ≤ cfg0.N) (hz : n ≠ 0) :
    PhiS V c n h = iprop((owns (c : Thread nD τ) scM0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the first call on core `c`: the arrays as the region finds them; after the body at point `t`
    each input's buffer at its block and the two results' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; `t % 4` says which kind of point this is, so that
    kind's run applies. The invariant hands the body the running-sum block — at anything at the very first point, at
    what the point before left afterwards — and takes it back at this point's contents (the stores cover the block).
    Where l < 3 the two result buffers go through untouched; where l = 3 they come back at what was stored. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the running-sum block's
    named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.KR1Frame.lean ====
/-
  Region 1 (the weight update): what one grid point does to its blocks, as the pipeline's proof data.

  A point (n, l) reads the column slice l of the two resident [256, 4096] arrays (the input and its trace), the
  [256, 1024] tiles n of the two echo arrays and of the surrogate derivative, the whole [256, 1] gate column and the
  [1024, 1024] tile (n, l) of the weights, and stores ONE [1024, 1024] block: the weights' tile minus the scaled
  contraction over the 256 batch rows. The body has a single control path, so what it leaves in the output buffer
  is one function of the input blocks, whatever the float instance.
-/
import proofs.«178930_j11708080849226_2_alg».proof.Proof.Gen.Kernel.Launch
import proofs.«178930_j11708080849226_2_alg».proof.Proof.Gen.Kernel.Skeleton
import proofs.«178930_j11708080849226_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry contents at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the entry contents at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the entry contents at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the entry contents at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block of the entry contents at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block of the entry contents at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block of the entry contents at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

/-- The column slice `l` of a resident [256, 4096] buffer: 1024 columns from `1024 · l`. -/
abbrev colSlice1 (i : grid1.Coords) : Rect S256x4096 := Rect.unit (s := S256x4096) (k1_off1 i) S256x1024.size (k1_off1_inb i)
abbrev whole256x1024 : Rect S256x1024 := Rect.unit (s := S256x1024) ![0, 0] S256x1024.size inb_S256x1024_S256x1024_0_0
abbrev whole256x1 : Rect S256x1 := Rect.unit (s := S256x1) ![0, 0] S256x1.size inb_S256x1_S256x1_0_0
abbrev whole1024x1024 : Rect S1024x1024 := Rect.unit (s := S1024x1024) ![0, 0] S1024x1024.size inb_S1024x1024_S1024x1024_0_0

/-! ## What the body leaves in the output block -/

/-- The output buffer after the body: its one whole-block store, over the payload of the seven loads. -/
def out1_7 (i : grid1.Coords) (x0 x1 : Vec F S256x4096 .f32) (x2 x3 x4 : Vec F S256x1024 .f32) (x5 : Vec F S256x1 .f32)
    (x6 : Vec F S1024x1024 .f32) : Vec F S1024x1024 .f32 :=
  View.canon [⟨whole1024x1024, k1_pay1 (View.ld x0 (colSlice1 i)) (View.ld x1 (colSlice1 i)) (View.ld x5 whole256x1)
    (View.ld x2 whole256x1024) (View.ld x3 whole256x1024) (View.ld x4 whole256x1024) (View.ld x6 whole1024x1024)⟩]

/-- The one store covers the block. -/
theorem cover1_7 (p0 : Vec F S1024x1024 .f32) (y : S1024x1024.Idx) :
    ∃ pc ∈ ([⟨whole1024x1024, p0⟩] : List (View.Piece (Elt F) S1024x1024 .f32)), y ∈ pc.1.set :=
  View.cover_of_tiled [⟨whole1024x1024, p0⟩] S1024x1024.size (by rfl) y

/-! ## The body's triple -/

set_option maxHeartbeats 4000000 in
/-- On whole staging memrefs, the seven inputs' at contents `x0 … x6` and the output's at anything, the body runs to
    the continuation with the inputs as they were and the output at `out1_7` of them. -/
theorem sound_kernel1 (c : Dev nD) (E : Set ℕ) (i : grid1.Coords)
    (arg2 : Memref sig .tc .vmem S256x4096 .f32) (harg2 : arg2.IsWhole) (arg3 : Memref sig .tc .vmem S256x4096 .f32) (harg3 : arg3.IsWhole)
    (arg4 : Memref sig .tc .vmem S256x1024 .f32) (harg4 : arg4.IsWhole) (arg5 : Memref sig .tc .vmem S256x1024 .f32) (harg5 : arg5.IsWhole)
    (arg6 : Memref sig .tc .vmem S256x1024 .f32) (harg6 : arg6.IsWhole) (arg7 : Memref sig .tc .vmem S256x1 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S256x4096 .f32) (x2 x3 x4 : Vec F S256x1024 .f32) (x5 : Vec F S256x1 .f32) (x6 : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 i x0 x1 x2 x3 x4 x5 x6)) -∗ K ⟨⟩))
      ⊢ wp frame (wpE (defs₀ (F := F)) Variants.none c none) E (cc1__dw_kernel i arg2 harg2 arg3 harg3 arg4 harg4 arg5 harg5 arg6 harg6 arg7 harg7 arg8 harg8 arg9 harg9) K := by
  simp only [cc1__dw_kernel_eq_skeleton]; unfold cc1__dw_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The proof data -/

/-- Region 1's proof data on core `c`: the arrays as the region finds them; after the body each input's buffer still at
    its block and the output's at `out1_7` of the seven input blocks; the region's invariant is the untouched scoped rest
    and generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (grid1.coords t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (grid1.coords t) (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: each input's memref holds its block, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KHostKeep.lean ====
/-
  The host operations between the two regions, as one map on buffer contents, and the buffers it leaves alone.

  Five stretches of host operations stand between the two kernel launches. From contents U they lead to
  `afterHost U`; a buffer none of them writes — every argument, and the first region's two outputs — keeps its contents.
-/
import proofs.«178930_j11708080849226_2_alg».proof.Proof.Gen.Kernel.Launch
import proofs.«178930_j11708080849226_2_alg».proof.Proof.Gen.Kernel.Regions
import Idealize.ShloMosaic.Lib.StableHlo.Run

set_option maxRecDepth 16384

noncomputable section

namespace Cert.Kernel.Hand

open Idealize.ShloMosaic Idealize.ShloMosaic.TcCoe Idealize.SL.Sem Idealize.ShloMosaic.StableHlo
open Cert.Kernel Cert.Kernel.Gen

variable {F : FTy → Type} [FloatOps F]

/-- The buffer contents after the five host stretches, from contents `U`. -/
def afterHost (U : Valuation τ sig (Elt F)) : Valuation τ sig (Elt F) :=
  StableHlo.after hostOps1_4 (StableHlo.after hostOps1_3 (StableHlo.after hostOps1_2 (StableHlo.after hostOps1_1 (StableHlo.after hostOps1 U))))

/-- The references the five stretches write. -/
abbrev hostWrites : List (Ref sig .tc) := hostOps1_W ++ hostOps1_1_W ++ hostOps1_2_W ++ hostOps1_3_W ++ hostOps1_4_W

/-- A buffer none of the stretches writes keeps its contents. -/
theorem afterHost_keep (U : Valuation τ sig (Elt F)) (r : Ref sig .tc) (h : r ∉ hostWrites) :
    afterHost U (Proc.devRef .tc r) = U (Proc.devRef .tc r) := by
  have h' : r ∉ hostOps1_W ∧ r ∉ hostOps1_1_W ∧ r ∉ hostOps1_2_W ∧ r ∉ hostOps1_3_W ∧ r ∉ hostOps1_4_W := by
    simp only [hostWrites, List.mem_append, not_or] at h
    exact ⟨h.1.1.1.1, h.1.1.1.2, h.1.1.2, h.1.2, h.2⟩
  unfold afterHost
  rw [StableHlo.after_of_writes_sub hostOps1_4 _ hostOps1_4_writes h'.2.2.2.2,
    StableHlo.after_of_writes_sub hostOps1_3 _ hostOps1_3_writes h'.2.2.2.1,
    StableHlo.after_of_writes_sub hostOps1_2 _ hostOps1_2_writes h'.2.2.1,
    StableHlo.after_of_writes_sub hostOps1_1 _ hostOps1_1_writes h'.2.1,
    StableHlo.after_of_writes_sub hostOps1 _ hostOps1_writes h'.1]

end Cert.Kernel.Hand

end
-- ==== Proof.KRun.lean ====
/-
  The run of the whole program: launch, region 0, the host operations, region 1, return.

  The buffer contents at each boundary are a fold from the launch memory: region 0 leaves its arrays at what its
  write-backs make of them and every other buffer as it found it; the host stretches apply their operations; region 1
  likewise. Every weakly fair execution terminates, and the final memory holds, in every unscoped buffer, the last
  boundary's contents — from which both the frame (each argument ends as launched: no region writes an argument back,
  no host operation writes one) and the result buffer's contents are read.
-/
import proofs.«178930_j11708080849226_2_alg».proof.Proof.KR0Frame
import proofs.«178930_j11708080849226_2_alg».proof.Proof.KR1Frame
import proofs.«178930_j11708080849226_2_alg».proof.Proof.KHostKeep
import proofs.«178930_j11708080849226_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- The same at the TensorCore's references: what region 0 is entered with. -/
abbrev E0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After each of the five host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
theorem W6_eq (c : Dev nD) : W6 m c = afterHost (W1 m c) := rfl
/-- What region 1 is entered with. -/
abbrev E6 : (c : Dev nD) → (b : Ref sig .tc) → Buf (Elt F) ((c : Thread nD τ).loc b) := fun c b => W6 m c b
/-- After region 1. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-! ## The arguments end as launched -/

/-- `main_arg0` holds its launch contents after region 0, after the host operations, and at the end. -/
theorem W1_main_arg0 (c : Dev nD) : W1 m c (Proc.devRef .tc main_arg0) = m ((c : Thread nD τ).loc main_arg0) :=
  ((W1_arr m c 0).trans (((dat0 (E0 m) c).arrAt_in 0 rfl _).trans (A_eq0 (E0 m) c 0))).trans rfl
theorem W6_main_arg0 (c : Dev nD) : W6 m c (Proc.devRef .tc main_arg0) = m ((c : Thread nD τ).loc main_arg0) :=
  (afterHost_keep (W1 m c) main_arg0 (by decide)).trans (W1_main_arg0 m c)
theorem W7_main_arg0 (c : Dev nD) : W7 m c (Proc.devRef .tc main_arg0) = m ((c : Thread nD τ).loc main_arg0) :=
  ((W7_arr m c 0).trans (((dat1 (E6 m) c).arrAt_in 0 rfl _).trans (A_eq1 (E6 m) c 0))).trans (W6_main_arg0 m c)

/-- `main_arg1` holds its launch contents after region 0, after the host operations, and at the end. -/
theorem W1_main_arg1 (c : Dev nD) : W1 m c (Proc.devRef .tc main_arg1) = m ((c : Thread nD τ).loc main_arg1) :=
  (W1_of_ne m c main_arg1 (by decide)).trans rfl
theorem W6_main_arg1 (c : Dev nD) : W6 m c (Proc.devRef .tc main_arg1) = m ((c : Thread nD τ).loc main_arg1) :=
  (afterHost_keep (W1 m c) main_arg1 (by decide)).trans (W1_main_arg1 m c)
theorem W7_main_arg1 (c : Dev nD) : W7 m c (Proc.devRef .tc main_arg1) = m ((c : Thread nD τ).loc main_arg1) :=
  ((W7_arr m c 1).trans (((dat1 (E6 m) c).arrAt_in 1 rfl _).trans (A_eq1 (E6 m) c 1))).trans (W6_main_arg1 m c)

/-- `main_arg2` holds its launch contents after region 0, after the host operations, and at the end. -/
theorem W1_main_arg2 (c : Dev nD) : W1 m c (Proc.devRef .tc main_arg2) = m ((c : Thread nD τ).loc main_arg2) :=
  (W1_of_ne m c main_arg2 (by decide)).trans rfl
theorem W6_main_arg2 (c : Dev nD) : W6 m c (Proc.devRef .tc main_arg2) = m ((c : Thread nD τ).loc main_arg2) :=
  (afterHost_keep (W1 m c) main_arg2 (by decide)).trans (W1_main_arg2 m c)
theorem W7_main_arg2 (c : Dev nD) : W7 m c (Proc.devRef .tc main_arg2) = m ((c : Thread nD τ).loc main_arg2) :=
  ((W7_arr m c 2).trans (((dat1 (E6 m) c).arrAt_in 2 rfl _).trans (A_eq1 (E6 m) c 2))).trans (W6_main_arg2 m c)

/-- `main_arg3` holds its launch contents after region 0, after the host operations, and at the end. -/
theorem W1_main_arg3 (c : Dev nD) : W1 m c (Proc.devRef .tc main_arg3) = m ((c : Thread nD τ).loc main_arg3) :=
  ((W1_arr m c 2).trans (((dat0 (E0 m) c).arrAt_in 2 rfl _).trans (A_eq0 (E0 m) c 2))).trans rfl
theorem W6_main_arg3 (c : Dev nD) : W6 m c (Proc.devRef .tc main_arg3) = m ((c : Thread nD τ).loc main_arg3) :=
  (afterHost_keep (W1 m c) main_arg3 (by decide)).trans (W1_main_arg3 m c)
theorem W7_main_arg3 (c : Dev nD) : W7 m c (Proc.devRef .tc main_arg3) = m ((c : Thread nD τ).loc main_arg3) :=
  (W7_of_ne m c main_arg3 (by decide)).trans (W6_main_arg3 m c)

/-- `main_arg4` holds its launch contents after region 0, after the host operations, and at the end. -/
theorem W1_main_arg4 (c : Dev nD) : W1 m c (Proc.devRef .tc main_arg4) = m ((c : Thread nD τ).loc main_arg4) :=
  ((W1_arr m c 1).trans (((dat0 (E0 m) c).arrAt_in 1 rfl _).trans (A_eq0 (E0 m) c 1))).trans rfl
theorem W6_main_arg4 (c : Dev nD) : W6 m c (Proc.devRef .tc main_arg4) = m ((c : Thread nD τ).loc main_arg4) :=
  (afterHost_keep (W1 m c) main_arg4 (by decide)).trans (W1_main_arg4 m c)
theorem W7_main_arg4 (c : Dev nD) : W7 m c (Proc.devRef .tc main_arg4) = m ((c : Thread nD τ).loc main_arg4) :=
  ((W7_arr m c 6).trans (((dat1 (E6 m) c).arrAt_in 6 rfl _).trans (A_eq1 (E6 m) c 6))).trans (W6_main_arg4 m c)

/-- `main_arg5` holds its launch contents after region 0, after the host operations, and at the end. -/
theorem W1_main_arg5 (c : Dev nD) : W1 m c (Proc.devRef .tc main_arg5) = m ((c : Thread nD τ).loc main_arg5) :=
  (W1_of_ne m c main_arg5 (by decide)).trans rfl
theorem W6_main_arg5 (c : Dev nD) : W6 m c (Proc.devRef .tc main_arg5) = m ((c : Thread nD τ).loc main_arg5) :=
  (afterHost_keep (W1 m c) main_arg5 (by decide)).trans (W1_main_arg5 m c)
theorem W7_main_arg5 (c : Dev nD) : W7 m c (Proc.devRef .tc main_arg5) = m ((c : Thread nD τ).loc main_arg5) :=
  (W7_of_ne m c main_arg5 (by decide)).trans (W6_main_arg5 m c)

/-- `main_arg6` holds its launch contents after region 0, after the host operations, and at the end. -/
theorem W1_main_arg6 (c : Dev nD) : W1 m c (Proc.devRef .tc main_arg6) = m ((c : Thread nD τ).loc main_arg6) :=
  (W1_of_ne m c main_arg6 (by decide)).trans rfl
theorem W6_main_arg6 (c : Dev nD) : W6 m c (Proc.devRef .tc main_arg6) = m ((c : Thread nD τ).loc main_arg6) :=
  (afterHost_keep (W1 m c) main_arg6 (by decide)).trans (W1_main_arg6 m c)
theorem W7_main_arg6 (c : Dev nD) : W7 m c (Proc.devRef .tc main_arg6) = m ((c : Thread nD τ).loc main_arg6) :=
  (W7_of_ne m c main_arg6 (by decide)).trans (W6_main_arg6 m c)

/-- Region 0's two outputs reach region 1 as region 0 left them: no host operation writes them. -/
theorem W6_main_v0_0 (c : Dev nD) : W6 m c (Proc.devRef .tc main_v0_0) = (dat0 (E0 m) c).arrAt 3 cfg0.N :=
  (afterHost_keep (W1 m c) main_v0_0 (by decide)).trans (W1_arr m c 3)
theorem W6_main_v0_1 (c : Dev nD) : W6 m c (Proc.devRef .tc main_v0_1) = (dat0 (E0 m) c).arrAt 4 cfg0.N :=
  (afterHost_keep (W1 m c) main_v0_1 (by decide)).trans (W1_arr m c 4)
theorem W1_main_v0_0 (c : Dev nD) : W1 m c (Proc.devRef .tc main_v0_0) = (dat0 (E0 m) c).arrAt 3 cfg0.N := W1_arr m c 3

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at `W0`, left with them at `W1`. Its arrays are
    split out of the unscoped buffers on entry and put back at their final contents on exit; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (?_ : _ ⊢ (Pipeline.ΦA spec0 c : sProp 𝕄)) (hin0 (E0 m) c)
    unfold Pipeline.ΦA
    iintro ⟨Hp, -, Hr⟩
    isplitl [Hr]; · iexact Hr
    iexact Hp
  hout c := by
    refine BI.Entails.trans (hout0 (E0 m) c) (?_ : (Pipeline.ΦA spec0 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`. Its arrays are
    split out of the unscoped buffers on entry and put back at their final contents on exit; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m) ]

set_option backward.isDefEq.respectTransparency.types false in
/-- THE RUN. From any memory with zero counters, every weakly fair execution of the program on the TensorCores
    terminates, nothing faulting, and the final memory holds every unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends holding its launch contents, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_all m ρ)

/-- The result buffer after the run: what region 1's write-backs leave in it. -/
theorem result (ρ : Dev nD → PrngReg) :
    θ_run defs (onTc (τ := τ) (main (F := F))) ⟨m, fun _ => 0, ρ⟩ (fun r => ∀ c : Dev nD,
      r.2.mem ((c.tc : Thread nD τ).loc main_v32) = (dat1 (E6 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (h c _ (mem_uc main_v32 (by decide))).trans (W7_arr m c 7),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_all m ρ)

end Cert.Kernel.Hand

end
-- ==== Proof.R0Base.lean ====
/-
  The first pallas_call (the membrane step): what its frame argument is stated over.

  The grid is 4 x 4, the point (n, l) at position t = 4 n + l. The body keeps a running sum in a scratch block:
  at l = 0 it zeroes the block, at every l it adds the product of column tile l of x with tile (n, l) of W, and at
  l = 3 it computes the two results (spikes, surrogate) from the membrane tile n and the finished sum. So there are
  three kinds of point: l = 0 (zero, then add), l = 1, 2 (add) and l = 3 (add, then emit). Everything is stated at
  the buffer contents `V` the region is entered with, and for any float instance.
-/
import proofs.«178930_j11708080849226_2_alg».proof.Proof.Gen.KernelIdeal.Launch
import proofs.«178930_j11708080849226_2_alg».proof.Proof.Gen.KernelIdeal.Skeleton
import proofs.«178930_j11708080849226_2_alg».proof.Proof.Gen.KernelIdeal.Points
import Idealize.ShloMosaic.Lib.Pipeline.FrameBody
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window (the whole array, moved in once, at the first point) holds its block at every point: where it is
    not fetched its block index has not moved, so the buffer still holds the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The W window (tile (n, l), moved in at every point) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The membrane window (tile n, moved in when l = 0) holds its block at every point: for l > 0 the tile index is
    the one of the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first column tile" (l = 0), as the body computes it from the second grid coordinate. -/
abbrev cond0_0 (i : grid0.Coords) : Prop := (Scalar.cmpi .ne (Scalar.extui (Scalar.cmpi .eq (BitVec.ofNat 32 (i 1).val) 0#32)) 0#32) = 1#1
/-- It holds exactly at the positions t with t % 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last column tile" (l = 3). -/
abbrev cond0_1 (i : grid0.Coords) : Prop := k0_cond2 i = 1#1
/-- It holds exactly at the positions t with t % 4 = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where a window is idle

The three inputs are read at every point. The two results are stored only when l = 3; at the other points the body
does not touch their buffers and the pipeline does not write them back. -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called on -/

/-- One staging buffer of each result window, through which its contents are stated (the choice does not matter:
    what is read back after covering stores is the same through any view). -/
abbrev VO0_3 : View sig .tc .vmem S256x1024 .f32 := (Memref.whole cc0_stg3_0 : Memref sig .tc .vmem S256x1024 .f32).view
abbrev VO0_4 : View sig .tc .vmem S256x1024 .f32 := (Memref.whole cc0_stg4_0 : Memref sig .tc .vmem S256x1024 .f32).view

/-- Each window's current staging memref at point `t`, as the pipeline passes it to the body, and that it is a whole buffer. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)

/-- The running-sum block: a whole scoped buffer of the kernel's own, passed beside the windows. -/
abbrev scM0 : Memref sig .tc .vmem S256x1024 .f32 := Memref.whole cc0_scratch0
/-- The same as a view: what the block holds is stated through it. -/
abbrev VS0 : View sig .tc .vmem S256x1024 .f32 := scM0.view

/-- What the launch hands the region besides the windows: the running-sum block at some contents, the core's other
    scoped buffers that are no staging buffer of this call (the second call's staging buffers: carried unopened),
    and the generator register at some state. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]; try rfl

end Cert.KernelIdeal.Hand

end
-- ==== Proof.R0RunA.lean ====
/-
  The membrane step's body at a point with l = 0: the running-sum block is zeroed, then the first product is added.
-/
import proofs.«178930_j11708080849226_2_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point where l = 0. On whole staging memrefs — x, the W tile and the membrane tile at their
    contents, the two result buffers (not touched here) at contents handed back as they were, the running-sum block at
    anything — it runs to a continuation that holds the inputs and the result buffers unchanged and the running-sum
    block with the listed stores written (last store first). The lists are found by running the body. -/
noncomputable def kernelRun0_A (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.R0RunB.lean ====
/-
  The membrane step's body at a point with l = 1 or l = 2: one more product is added to the running sum.
-/
import proofs.«178930_j11708080849226_2_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point where l is neither 0 nor 3. On whole staging memrefs — x, the W tile and the membrane tile at
    their contents, the two result buffers (not touched here) at contents handed back as they were, the running-sum
    block at what the point before left (`xs`) — it runs to a continuation that holds the inputs and the result
    buffers unchanged and the running-sum block with the listed stores written (last store first). -/
noncomputable def kernelRun0_B (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.R0RunC.lean ====
/-
  The membrane step's body at a point with l = 3: the last product is added, then the two results are computed
  from the membrane tile and the finished sum and stored.
-/
import proofs.«178930_j11708080849226_2_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point where l = 3. On whole staging memrefs — x, the W tile and the membrane tile at their
    contents, the two result buffers at anything, the running-sum block at what the point before left (`xs`) — it
    runs to a continuation that holds the inputs unchanged and each result buffer and the running-sum block with the
    listed stores written (last store first). -/
noncomputable def kernelRun0_C (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) :
    Σ' (L3 : List (View.Piece (Elt F) S256x1024 .f32)) (L4 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨?_, ?_, ?_, fun E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.R0Frame.lean ====
/-
  The first pallas_call (the membrane step): its frame half.

  What each kind of point leaves in the two result buffers and in the running-sum block; what they hold after every
  point, by recursion on the position (the running sum after a point with l > 0 is computed from the running sum the
  point before left); the invariant that carries the running-sum block from point to point; the pipeline's proof
  data; and the body obligation at every point, by cases on l.
-/
import proofs.«178930_j11708080849226_2_alg».proof.Proof.R0RunA
import proofs.«178930_j11708080849226_2_alg».proof.Proof.R0RunB
import proofs.«178930_j11708080849226_2_alg».proof.Proof.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- At a point with l = 0 nothing is stored into the spikes buffer: no pieces — a placeholder (junk read back) that
    nothing consults, since at these points the window is neither written back nor read at the next point. -/
def out0_A_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) : Vec F S256x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- The same for the surrogate buffer. -/
def out0_A_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) : Vec F S256x1024 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- The stores into the running-sum block at a point with l = 0 cover it. -/
theorem scover0_A (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) (y : S256x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S256x1024.size (by sl_kernel_rfl) y

/-- What the running-sum block holds after a point with l = 0: the stores read back over junk. -/
def sout0_A (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) : Vec F S256x1024 .f32 :=
  VS0.read (Elt F) (VS0.writes (Elt F) VS0.junk (kernelRun0_A c i arg2 harg2 arg3 harg3 arg4 harg4 arg5 harg5 arg6 harg6 arg7 harg7 hc0 hc1 x0 x1 x2).2.2.1)

/-- At a point with l = 1 or 2 nothing is stored into the spikes buffer: no pieces — a placeholder (junk read back) that
    nothing consults, since at these points the window is neither written back nor read at the next point. -/
def out0_B_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) : Vec F S256x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs).1)

/-- The same for the surrogate buffer. -/
def out0_B_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) : Vec F S256x1024 .f32 :=
  VO0_4.read (Elt F) (VO0_4.writes (Elt F) VO0_4.junk (kernelRun0_B c i arg2 harg2 arg3 harg3 arg4 harg4 arg5 harg5 arg6 harg6 arg7 harg7 hc0 hc1 x0 x1 x2 xs).2.1)

/-- The stores into the running-sum block at a point with l = 1 or 2 cover it. -/
theorem scover0_B (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) (y : S256x1024.Idx) :
    ∃ pc ∈ (kernelRun0_B c i arg2 harg2 arg3 harg3 arg4 harg4 arg5 harg5 arg6 harg6 arg7 harg7 hc0 hc1 x0 x1 x2 xs).2.2.1, y ∈ pc.1.set :=
  View.cover_of_tiledL (kernelRun0_B c i arg2 harg2 arg3 harg3 arg4 harg4 arg5 harg5 arg6 harg6 arg7 harg7 hc0 hc1 x0 x1 x2 xs).2.2.1 S256x1024.size (by sl_kernel_rfl) y

/-- What the running-sum block holds after a point with l = 1 or 2: the stores read back over junk. -/
def sout0_B (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) : Vec F S256x1024 .f32 :=
  VS0.read (Elt F) (VS0.writes (Elt F) VS0.junk (kernelRun0_B c i arg2 harg2 arg3 harg3 arg4 harg4 arg5 harg5 arg6 harg6 arg7 harg7 hc0 hc1 x0 x1 x2 xs).2.2.1)

/-- At a point with l = 3 the store into the spikes buffer covers it. -/
theorem cover0_C_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) (y : S256x1024.Idx) :
    ∃ pc ∈ (kernelRun0_C c i arg2 harg2 arg3 harg3 arg4 harg4 arg5 harg5 arg6 harg6 arg7 harg7 hc0 hc1 x0 x1 x2 xs).1, y ∈ pc.1.set :=
  View.cover_of_tiledL (kernelRun0_C c i arg2 harg2 arg3 harg3 arg4 harg4 arg5 harg5 arg6 harg6 arg7 harg7 hc0 hc1 x0 x1 x2 xs).1 S256x1024.size (by sl_kernel_rfl) y

/-- What the spikes buffer holds after a point with l = 3: the stores read back over junk. -/
def out0_C_3 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) : Vec F S256x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs).1)

/-- At a point with l = 3 the store into the surrogate buffer covers it. -/
theorem cover0_C_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) (y : S256x1024.Idx) :
    ∃ pc ∈ (kernelRun0_C c i arg2 harg2 arg3 harg3 arg4 harg4 arg5 harg5 arg6 harg6 arg7 harg7 hc0 hc1 x0 x1 x2 xs).2.1, y ∈ pc.1.set :=
  View.cover_of_tiledL (kernelRun0_C c i arg2 harg2 arg3 harg3 arg4 harg4 arg5 harg5 arg6 harg6 arg7 harg7 hc0 hc1 x0 x1 x2 xs).2.1 S256x1024.size (by sl_kernel_rfl) y

/-- What the surrogate buffer holds after a point with l = 3: the stores read back over junk. -/
def out0_C_4 (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) : Vec F S256x1024 .f32 :=
  VO0_4.read (Elt F) (VO0_4.writes (Elt F) VO0_4.junk (kernelRun0_C c i arg2 harg2 arg3 harg3 arg4 harg4 arg5 harg5 arg6 harg6 arg7 harg7 hc0 hc1 x0 x1 x2 xs).2.1)

/-- The stores into the running-sum block at a point with l = 3 cover it. -/
theorem scover0_C (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) (y : S256x1024.Idx) :
    ∃ pc ∈ (kernelRun0_C c i arg2 harg2 arg3 harg3 arg4 harg4 arg5 harg5 arg6 harg6 arg7 harg7 hc0 hc1 x0 x1 x2 xs).2.2.1, y ∈ pc.1.set :=
  View.cover_of_tiledL (kernelRun0_C c i arg2 harg2 arg3 harg3 arg4 harg4 arg5 harg5 arg6 harg6 arg7 harg7 hc0 hc1 x0 x1 x2 xs).2.2.1 S256x1024.size (by sl_kernel_rfl) y

/-- What the running-sum block holds after a point with l = 3: the stores read back over junk. -/
def sout0_C (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) : Vec F S256x1024 .f32 :=
  VS0.read (Elt F) (VS0.writes (Elt F) VS0.junk (kernelRun0_C c i arg2 harg2 arg3 harg3 arg4 harg4 arg5 harg5 arg6 harg6 arg7 harg7 hc0 hc1 x0 x1 x2 xs).2.2.1)

/-! ## What the buffers hold after each point -/

/-- What the spikes buffer, the surrogate buffer and the running-sum block hold after the body at position `n`:
    the kind of point is read off `n % 4`; a point with l > 0 starts from the running sum the point before left.
    (The combination "l = 0 and l = 3" meets no point.) -/
def outsAt0 (c : Dev nD) : (n : ℕ) → n < cfg0.N → Vec F S256x1024 .f32 × Vec F S256x1024 .f32 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at a point with l = 0. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point with l = 1 or 2: over the running sum the point before left. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with l = 3: over the running sum the point before left. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the first point what the launch hands over (the running-sum block at anything); later the
    running-sum block at what the point before left, the core's other scoped buffers untouched, and the generator
    register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

/-- After point `n`: the running-sum block at that point's contents. -/
theorem PhiS_succ (c : Dev nD) (n : ℕ) (hn : n < cfg0.N) :
    PhiS V c (n + 1) hn = iprop((owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl

/-- Before a point that is not the first: the running-sum block at what the point before left. -/
theorem PhiS_pos (c : Dev nD) (n : ℕ) (h : n ≤ cfg0.N) (hz : n ≠ 0) :
    PhiS V c n h = iprop((owns (c : Thread nD τ) scM0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the first call on core `c`: the arrays as the region finds them; after the body at point `t`
    each input's buffer at its block and the two results' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; `t % 4` says which kind of point this is, so that
    kind's run applies. The invariant hands the body the running-sum block — at anything at the very first point, at
    what the point before left afterwards — and takes it back at this point's contents (the stores cover the block).
    Where l < 3 the two result buffers go through untouched; where l = 3 they come back at what was stored. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the running-sum block's
    named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.R1Frame.lean ====
/-
  Region 1 (the weight update): what one grid point does to its blocks, as the pipeline's proof data.

  A point (n, l) reads the column slice l of the two resident [256, 4096] arrays (the input and its trace), the
  [256, 1024] tiles n of the two echo arrays and of the surrogate derivative, the whole [256, 1] gate column and the
  [1024, 1024] tile (n, l) of the weights, and stores ONE [1024, 1024] block: the weights' tile minus the scaled
  contraction over the 256 batch rows. The body has a single control path, so what it leaves in the output buffer
  is one function of the input blocks, whatever the float instance.
-/
import proofs.«178930_j11708080849226_2_alg».proof.Proof.Gen.KernelIdeal.Launch
import proofs.«178930_j11708080849226_2_alg».proof.Proof.Gen.KernelIdeal.Skeleton
import proofs.«178930_j11708080849226_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry contents at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of the entry contents at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block of the entry contents at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block of the entry contents at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block of the entry contents at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block of the entry contents at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block of the entry contents at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

/-- The column slice `l` of a resident [256, 4096] buffer: 1024 columns from `1024 · l`. -/
abbrev colSlice1 (i : grid1.Coords) : Rect S256x4096 := Rect.unit (s := S256x4096) (k1_off1 i) S256x1024.size (k1_off1_inb i)
abbrev whole256x1024 : Rect S256x1024 := Rect.unit (s := S256x1024) ![0, 0] S256x1024.size inb_S256x1024_S256x1024_0_0
abbrev whole256x1 : Rect S256x1 := Rect.unit (s := S256x1) ![0, 0] S256x1.size inb_S256x1_S256x1_0_0
abbrev whole1024x1024 : Rect S1024x1024 := Rect.unit (s := S1024x1024) ![0, 0] S1024x1024.size inb_S1024x1024_S1024x1024_0_0

/-! ## What the body leaves in the output block -/

/-- The output buffer after the body: its one whole-block store, over the payload of the seven loads. -/
def out1_7 (i : grid1.Coords) (x0 x1 : Vec F S256x4096 .f32) (x2 x3 x4 : Vec F S256x1024 .f32) (x5 : Vec F S256x1 .f32)
    (x6 : Vec F S1024x1024 .f32) : Vec F S1024x1024 .f32 :=
  View.canon [⟨whole1024x1024, k1_pay1 (View.ld x0 (colSlice1 i)) (View.ld x1 (colSlice1 i)) (View.ld x5 whole256x1)
    (View.ld x2 whole256x1024) (View.ld x3 whole256x1024) (View.ld x4 whole256x1024) (View.ld x6 whole1024x1024)⟩]

/-- The one store covers the block. -/
theorem cover1_7 (p0 : Vec F S1024x1024 .f32) (y : S1024x1024.Idx) :
    ∃ pc ∈ ([⟨whole1024x1024, p0⟩] : List (View.Piece (Elt F) S1024x1024 .f32)), y ∈ pc.1.set :=
  View.cover_of_tiled [⟨whole1024x1024, p0⟩] S1024x1024.size (by rfl) y

/-! ## The body's triple -/

set_option maxHeartbeats 4000000 in
/-- On whole staging memrefs, the seven inputs' at contents `x0 … x6` and the output's at anything, the body runs to
    the continuation with the inputs as they were and the output at `out1_7` of them. -/
theorem sound_kernel1 (c : Dev nD) (E : Set ℕ) (i : grid1.Coords)
    (arg2 : Memref sig .tc .vmem S256x4096 .f32) (harg2 : arg2.IsWhole) (arg3 : Memref sig .tc .vmem S256x4096 .f32) (harg3 : arg3.IsWhole)
    (arg4 : Memref sig .tc .vmem S256x1024 .f32) (harg4 : arg4.IsWhole) (arg5 : Memref sig .tc .vmem S256x1024 .f32) (harg5 : arg5.IsWhole)
    (arg6 : Memref sig .tc .vmem S256x1024 .f32) (harg6 : arg6.IsWhole) (arg7 : Memref sig .tc .vmem S256x1 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S256x4096 .f32) (x2 x3 x4 : Vec F S256x1024 .f32) (x5 : Vec F S256x1 .f32) (x6 : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out1_7 i x0 x1 x2 x3 x4 x5 x6)) -∗ K ⟨⟩))
      ⊢ wp frame (wpE (defs₀ (F := F)) Variants.none c none) E (cc1__dw_kernel i arg2 harg2 arg3 harg3 arg4 harg4 arg5 harg5 arg6 harg6 arg7 harg7 arg8 harg8 arg9 harg9) K := by
  simp only [cc1__dw_kernel_eq_skeleton]; unfold cc1__dw_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The proof data -/

/-- Region 1's proof data on core `c`: the arrays as the region finds them; after the body each input's buffer still at
    its block and the output's at `out1_7` of the seven input blocks; the region's invariant is the untouched scoped rest
    and generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (grid1.coords t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (grid1.coords t) (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: each input's memref holds its block, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HostKeep.lean ====
/-
  The host operations between the two regions, as one map on buffer contents, and the buffers it leaves alone.

  Five stretches of host operations stand between the two kernel launches. From contents U they lead to
  `afterHost U`; a buffer none of them writes — every argument, and the first region's two outputs — keeps its contents.
-/
import proofs.«178930_j11708080849226_2_alg».proof.Proof.Gen.KernelIdeal.Launch
import proofs.«178930_j11708080849226_2_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The buffer contents after the five host stretches, from contents `U`. -/
def afterHost (U : Valuation τ sig (Elt F)) : Valuation τ sig (Elt F) :=
  StableHlo.after hostOps1_4 (StableHlo.after hostOps1_3 (StableHlo.after hostOps1_2 (StableHlo.after hostOps1_1 (StableHlo.after hostOps1 U))))

/-- The references the five stretches write. -/
abbrev hostWrites : List (Ref sig .tc) := hostOps1_W ++ hostOps1_1_W ++ hostOps1_2_W ++ hostOps1_3_W ++ hostOps1_4_W

/-- A buffer none of the stretches writes keeps its contents. -/
theorem afterHost_keep (U : Valuation τ sig (Elt F)) (r : Ref sig .tc) (h : r ∉ hostWrites) :
    afterHost U (Proc.devRef .tc r) = U (Proc.devRef .tc r) := by
  have h' : r ∉ hostOps1_W ∧ r ∉ hostOps1_1_W ∧ r ∉ hostOps1_2_W ∧ r ∉ hostOps1_3_W ∧ r ∉ hostOps1_4_W := by
    simp only [hostWrites, List.mem_append, not_or] at h
    exact ⟨h.1.1.1.1, h.1.1.1.2, h.1.1.2, h.1.2, h.2⟩
  unfold afterHost
  rw [StableHlo.after_of_writes_sub hostOps1_4 _ hostOps1_4_writes h'.2.2.2.2,
    StableHlo.after_of_writes_sub hostOps1_3 _ hostOps1_3_writes h'.2.2.2.1,
    StableHlo.after_of_writes_sub hostOps1_2 _ hostOps1_2_writes h'.2.2.1,
    StableHlo.after_of_writes_sub hostOps1_1 _ hostOps1_1_writes h'.2.1,
    StableHlo.after_of_writes_sub hostOps1 _ hostOps1_writes h'.1]

end Cert.KernelIdeal.Hand

end
-- ==== Proof.Run.lean ====
/-
  The run of the whole program: launch, region 0, the host operations, region 1, return.

  The buffer contents at each boundary are a fold from the launch memory: region 0 leaves its arrays at what its
  write-backs make of them and every other buffer as it found it; the host stretches apply their operations; region 1
  likewise. Every weakly fair execution terminates, and the final memory holds, in every unscoped buffer, the last
  boundary's contents — from which both the frame (each argument ends as launched: no region writes an argument back,
  no host operation writes one) and the result buffer's contents are read.
-/
import proofs.«178930_j11708080849226_2_alg».proof.Proof.R0Frame
import proofs.«178930_j11708080849226_2_alg».proof.Proof.R1Frame
import proofs.«178930_j11708080849226_2_alg».proof.Proof.HostKeep
import proofs.«178930_j11708080849226_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- The same at the TensorCore's references: what region 0 is entered with. -/
abbrev E0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After each of the five host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
theorem W6_eq (c : Dev nD) : W6 m c = afterHost (W1 m c) := rfl
/-- What region 1 is entered with. -/
abbrev E6 : (c : Dev nD) → (b : Ref sig .tc) → Buf (Elt F) ((c : Thread nD τ).loc b) := fun c b => W6 m c b
/-- After region 1. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-! ## The arguments end as launched -/

/-- `main_arg0` holds its launch contents after region 0, after the host operations, and at the end. -/
theorem W1_main_arg0 (c : Dev nD) : W1 m c (Proc.devRef .tc main_arg0) = m ((c : Thread nD τ).loc main_arg0) :=
  ((W1_arr m c 0).trans (((dat0 (E0 m) c).arrAt_in 0 rfl _).trans (A_eq0 (E0 m) c 0))).trans rfl
theorem W6_main_arg0 (c : Dev nD) : W6 m c (Proc.devRef .tc main_arg0) = m ((c : Thread nD τ).loc main_arg0) :=
  (afterHost_keep (W1 m c) main_arg0 (by decide)).trans (W1_main_arg0 m c)
theorem W7_main_arg0 (c : Dev nD) : W7 m c (Proc.devRef .tc main_arg0) = m ((c : Thread nD τ).loc main_arg0) :=
  ((W7_arr m c 0).trans (((dat1 (E6 m) c).arrAt_in 0 rfl _).trans (A_eq1 (E6 m) c 0))).trans (W6_main_arg0 m c)

/-- `main_arg1` holds its launch contents after region 0, after the host operations, and at the end. -/
theorem W1_main_arg1 (c : Dev nD) : W1 m c (Proc.devRef .tc main_arg1) = m ((c : Thread nD τ).loc main_arg1) :=
  (W1_of_ne m c main_arg1 (by decide)).trans rfl
theorem W6_main_arg1 (c : Dev nD) : W6 m c (Proc.devRef .tc main_arg1) = m ((c : Thread nD τ).loc main_arg1) :=
  (afterHost_keep (W1 m c) main_arg1 (by decide)).trans (W1_main_arg1 m c)
theorem W7_main_arg1 (c : Dev nD) : W7 m c (Proc.devRef .tc main_arg1) = m ((c : Thread nD τ).loc main_arg1) :=
  ((W7_arr m c 1).trans (((dat1 (E6 m) c).arrAt_in 1 rfl _).trans (A_eq1 (E6 m) c 1))).trans (W6_main_arg1 m c)

/-- `main_arg2` holds its launch contents after region 0, after the host operations, and at the end. -/
theorem W1_main_arg2 (c : Dev nD) : W1 m c (Proc.devRef .tc main_arg2) = m ((c : Thread nD τ).loc main_arg2) :=
  (W1_of_ne m c main_arg2 (by decide)).trans rfl
theorem W6_main_arg2 (c : Dev nD) : W6 m c (Proc.devRef .tc main_arg2) = m ((c : Thread nD τ).loc main_arg2) :=
  (afterHost_keep (W1 m c) main_arg2 (by decide)).trans (W1_main_arg2 m c)
theorem W7_main_arg2 (c : Dev nD) : W7 m c (Proc.devRef .tc main_arg2) = m ((c : Thread nD τ).loc main_arg2) :=
  ((W7_arr m c 2).trans (((dat1 (E6 m) c).arrAt_in 2 rfl _).trans (A_eq1 (E6 m) c 2))).trans (W6_main_arg2 m c)

/-- `main_arg3` holds its launch contents after region 0, after the host operations, and at the end. -/
theorem W1_main_arg3 (c : Dev nD) : W1 m c (Proc.devRef .tc main_arg3) = m ((c : Thread nD τ).loc main_arg3) :=
  ((W1_arr m c 2).trans (((dat0 (E0 m) c).arrAt_in 2 rfl _).trans (A_eq0 (E0 m) c 2))).trans rfl
theorem W6_main_arg3 (c : Dev nD) : W6 m c (Proc.devRef .tc main_arg3) = m ((c : Thread nD τ).loc main_arg3) :=
  (afterHost_keep (W1 m c) main_arg3 (by decide)).trans (W1_main_arg3 m c)
theorem W7_main_arg3 (c : Dev nD) : W7 m c (Proc.devRef .tc main_arg3) = m ((c : Thread nD τ).loc main_arg3) :=
  (W7_of_ne m c main_arg3 (by decide)).trans (W6_main_arg3 m c)

/-- `main_arg4` holds its launch contents after region 0, after the host operations, and at the end. -/
theorem W1_main_arg4 (c : Dev nD) : W1 m c (Proc.devRef .tc main_arg4) = m ((c : Thread nD τ).loc main_arg4) :=
  ((W1_arr m c 1).trans (((dat0 (E0 m) c).arrAt_in 1 rfl _).trans (A_eq0 (E0 m) c 1))).trans rfl
theorem W6_main_arg4 (c : Dev nD) : W6 m c (Proc.devRef .tc main_arg4) = m ((c : Thread nD τ).loc main_arg4) :=
  (afterHost_keep (W1 m c) main_arg4 (by decide)).trans (W1_main_arg4 m c)
theorem W7_main_arg4 (c : Dev nD) : W7 m c (Proc.devRef .tc main_arg4) = m ((c : Thread nD τ).loc main_arg4) :=
  ((W7_arr m c 6).trans (((dat1 (E6 m) c).arrAt_in 6 rfl _).trans (A_eq1 (E6 m) c 6))).trans (W6_main_arg4 m c)

/-- `main_arg5` holds its launch contents after region 0, after the host operations, and at the end. -/
theorem W1_main_arg5 (c : Dev nD) : W1 m c (Proc.devRef .tc main_arg5) = m ((c : Thread nD τ).loc main_arg5) :=
  (W1_of_ne m c main_arg5 (by decide)).trans rfl
theorem W6_main_arg5 (c : Dev nD) : W6 m c (Proc.devRef .tc main_arg5) = m ((c : Thread nD τ).loc main_arg5) :=
  (afterHost_keep (W1 m c) main_arg5 (by decide)).trans (W1_main_arg5 m c)
theorem W7_main_arg5 (c : Dev nD) : W7 m c (Proc.devRef .tc main_arg5) = m ((c : Thread nD τ).loc main_arg5) :=
  (W7_of_ne m c main_arg5 (by decide)).trans (W6_main_arg5 m c)

/-- `main_arg6` holds its launch contents after region 0, after the host operations, and at the end. -/
theorem W1_main_arg6 (c : Dev nD) : W1 m c (Proc.devRef .tc main_arg6) = m ((c : Thread nD τ).loc main_arg6) :=
  (W1_of_ne m c main_arg6 (by decide)).trans rfl
theorem W6_main_arg6 (c : Dev nD) : W6 m c (Proc.devRef .tc main_arg6) = m ((c : Thread nD τ).loc main_arg6) :=
  (afterHost_keep (W1 m c) main_arg6 (by decide)).trans (W1_main_arg6 m c)
theorem W7_main_arg6 (c : Dev nD) : W7 m c (Proc.devRef .tc main_arg6) = m ((c : Thread nD τ).loc main_arg6) :=
  (W7_of_ne m c main_arg6 (by decide)).trans (W6_main_arg6 m c)

/-- Region 0's two outputs reach region 1 as region 0 left them: no host operation writes them. -/
theorem W6_main_v0_0 (c : Dev nD) : W6 m c (Proc.devRef .tc main_v0_0) = (dat0 (E0 m) c).arrAt 3 cfg0.N :=
  (afterHost_keep (W1 m c) main_v0_0 (by decide)).trans (W1_arr m c 3)
theorem W6_main_v0_1 (c : Dev nD) : W6 m c (Proc.devRef .tc main_v0_1) = (dat0 (E0 m) c).arrAt 4 cfg0.N :=
  (afterHost_keep (W1 m c) main_v0_1 (by decide)).trans (W1_arr m c 4)
theorem W1_main_v0_0 (c : Dev nD) : W1 m c (Proc.devRef .tc main_v0_0) = (dat0 (E0 m) c).arrAt 3 cfg0.N := W1_arr m c 3

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at `W0`, left with them at `W1`. Its arrays are
    split out of the unscoped buffers on entry and put back at their final contents on exit; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (?_ : _ ⊢ (Pipeline.ΦA spec0 c : sProp 𝕄)) (hin0 (E0 m) c)
    unfold Pipeline.ΦA
    iintro ⟨Hp, -, Hr⟩
    isplitl [Hr]; · iexact Hr
    iexact Hp
  hout c := by
    refine BI.Entails.trans (hout0 (E0 m) c) (?_ : (Pipeline.ΦA spec0 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`. Its arrays are
    split out of the unscoped buffers on entry and put back at their final contents on exit; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m) ]

set_option backward.isDefEq.respectTransparency.types false in
/-- THE RUN. From any memory with zero counters, every weakly fair execution of the program on the TensorCores
    terminates, nothing faulting, and the final memory holds every unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends holding its launch contents, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_all m ρ)

/-- The result buffer after the run: what region 1's write-backs leave in it. -/
theorem result (ρ : Dev nD → PrngReg) :
    θ_run defs (onTc (τ := τ) (main (F := F))) ⟨m, fun _ => 0, ρ⟩ (fun r => ∀ c : Dev nD,
      r.2.mem ((c.tc : Thread nD τ).loc main_v32) = (dat1 (E6 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      (h c _ (mem_uc main_v32 (by decide))).trans (W7_arr m c 7),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_all m ρ)

end Cert.KernelIdeal.Hand

end
-- ==== Proof.Spec.lean ====
/-
  The specification: the reference's computation, stage by stage, as whole-array functions of the arguments.

  With x the input [256, 4096], W the weights [4096, 4096], mem the membrane state, ep the echo trace, it the input
  trace, s the scalar input activity and idx the 256 row numbers of the negative samples:

    memOut  = β · mem + x · Wᵀ                         (β the single-precision 0.95)
    spikes  = [memOut > 1]                              (an indicator, as a float)
    surr    = 1 / (1 + (π · (memOut − 1))²)             (π the single-precision constant)
    echoNeg = ep gathered at the rows idx (a negative row number counted from the end)
    gate    = [ relu-then-gated loss > 0 ∧ s > 0.02 ]   as a [256, 1] column, the loss
              γ·s − mean(spikes·ep) + mean(spikes·echoNeg) over each row
    update  = W − lr · ( (−gate · (ep − echoNeg) · surr)ᵀ · (β · it + x) ) / 2²⁰

  Each is spelt with the reference program's own operations and dimension records, so that the reference's result is,
  by unfolding, `update` of the stages above; the kernel is proved against the same functions.
-/
import proofs.«178930_j11708080849226_2_alg».proof.ReferenceIdeal
import proofs.«178930_j11708080849226_2_alg».proof.Proof.Gen.ReferenceIdeal

noncomputable section

namespace Cert.Spec

open Idealize.ShloMosaic Cert.ReferenceIdeal Cert.ReferenceIdeal.Gen

variable {F : FTy → Type} [FloatOps F]

/-- A [256, 4096] array. -/
abbrev Mat := (⟨S256x4096, .f32⟩ : BufTy).Contents (Elt F)
/-- The [4096, 4096] weights. -/
abbrev Wts := (⟨S4096x4096, .f32⟩ : BufTy).Contents (Elt F)
/-- A [256, 1] column. -/
abbrev Col := (⟨S256x1, .f32⟩ : BufTy).Contents (Elt F)
/-- A float scalar. -/
abbrev Scl := (⟨S_, .f32⟩ : BufTy).Contents (Elt F)
/-- The 256 row numbers. -/
abbrev Rows := (⟨S256, .i32⟩ : BufTy).Contents (Elt F)

/-- A float scalar literal spread over a [256, 4096] array. -/
abbrev fill (b : BitVec 32) : Mat (F := F) := broadcastInDim S256x4096 ![] bcast_S_S256x4096 (constant (F := F) S_ .f32 b)
/-- A float scalar spread over 256 entries. -/
abbrev fill256 (v : Scl (F := F)) : (⟨S256, .f32⟩ : BufTy).Contents (Elt F) := broadcastInDim S256 ![] bcast_S_S256 v

/-- The membrane after the step: β · mem + x · Wᵀ. -/
def memOut (x : Mat (F := F)) (W : Wts (F := F)) (mem : Mat (F := F)) : Mat (F := F) :=
  addf (mulf (fill 0x3F733333#32) mem)
    (Host.dotGeneral dot_S256x4096_S4096x4096_S256x4096_1_0_0_1_n_n none x (transpose S4096x4096 [1, 0] W transposes_S4096x4096_S4096x4096_1_0))

/-- The spikes: the indicator of memOut > 1, as a float. -/
def spikes (x : Mat (F := F)) (W : Wts (F := F)) (mem : Mat (F := F)) : Mat (F := F) :=
  uitofp .f32 (cmpf .ogt (memOut x W mem) (fill 0x3F800000#32))

/-- The surrogate derivative 1 / (1 + (π (memOut − 1))²). -/
def surr (x : Mat (F := F)) (W : Wts (F := F)) (mem : Mat (F := F)) : Mat (F := F) :=
  Host.divf (fill 0x3F800000#32) (addf (fill 0x3F800000#32)
    (mulf (mulf (fill 0x40490FDB#32) (subf (memOut x W mem) (fill 0x3F800000#32)))
      (mulf (fill 0x40490FDB#32) (subf (memOut x W mem) (fill 0x3F800000#32)))))

/-- The echo trace gathered at the negative samples' rows (a negative row number wraps by 256 first). -/
def echoNeg (ep : Mat (F := F)) (idx : Rows (F := F)) : Mat (F := F) :=
  Host.gather gather_S256x4096_S256x1_S256x4096_1_0_n_n_0_1_14096 ep
    (broadcastInDim S256x1 ![0] bcast_S256_S256x1_0
      (select (cmpi .slt idx (broadcastInDim S256 ![] bcast_S_S256 (constantI S_ 32 0#32)))
        (addi idx (broadcastInDim S256 ![] bcast_S_S256 (constantI S_ 32 256#32))) idx))

/-- The per-row loss γ·s − mean(sp·ep) + mean(sp·en), the means over the 4096 columns. -/
def loss (sp ep en : Mat (F := F)) (s : Scl (F := F)) : (⟨S256, .f32⟩ : BufTy).Contents (Elt F) :=
  addf (subf (fill256 (mulf (constant (F := F) S_ .f32 0x3DCCCCCD#32) s))
      (Host.divf (Host.reduceAdd (mulf sp ep) (constant (F := F) S_ .f32 0x00000000#32) reducesTo_S256x4096_S256_d1 h_S_) (fill256 (constant (F := F) S_ .f32 0x45800000#32))))
    (Host.divf (Host.reduceAdd (mulf sp en) (constant (F := F) S_ .f32 0x00000000#32) reducesTo_S256x4096_S256_d1 h_S_) (fill256 (constant (F := F) S_ .f32 0x45800000#32)))

/-- The gate column: 1 where the loss, kept where positive and where the activity passes its threshold, is positive
    and the activity passes its threshold; else 0. -/
def gate (sp ep en : Mat (F := F)) (s : Scl (F := F)) : Col (F := F) :=
  broadcastInDim S256x1 ![0] bcast_S256_S256x1_0 (uitofp .f32 (andi
    (cmpf .ogt
      (select (broadcastInDim S256 ![] bcast_S_S256 (cmpf .ogt s (constant (F := F) S_ .f32 0x3CA3D70A#32)))
        (select (cmpf .ogt (loss sp ep en s) (fill256 (constant (F := F) S_ .f32 0x00000000#32))) (loss sp ep en s)
          (fill256 (id (constant (F := F) S_ .f32 0x00000000#32))))
        (fill256 (id (constant (F := F) S_ .f32 0x00000000#32))))
      (fill256 (constant (F := F) S_ .f32 0x00000000#32)))
    (broadcastInDim S256 ![] bcast_S_S256 (cmpf .ogt s (constant (F := F) S_ .f32 0x3CA3D70A#32)))))

/-- The updated weights: W − lr · ((−dl · (ep − en) · su)ᵀ · (β · it + x)) / 2²⁰. -/
def update (x it ep en su : Mat (F := F)) (dl : Col (F := F)) (W : Wts (F := F)) : Wts (F := F) :=
  subf W (mulf (broadcastInDim S4096x4096 ![] bcast_S_S4096x4096 (constant (F := F) S_ .f32 0x3C23D70A#32))
    (Host.divf
      (Host.dotGeneral dot_S256x4096_S256x4096_S4096x4096_0_0_1_1_n_n none
        (mulf (mulf (broadcastInDim S256x4096 ![0, 1] bcast_S256x1_S256x4096_0_1 (Host.negf dl)) (subf ep en)) su)
        (addf (mulf (fill 0x3F733333#32) it) x))
      (broadcastInDim S4096x4096 ![] bcast_S_S4096x4096 (constant (F := F) S_ .f32 0x49800000#32))))

/-- The whole reference: the update at the stages computed from the seven arguments. -/
def whole (x it ep mem : Mat (F := F)) (W : Wts (F := F)) (s : Scl (F := F)) (idx : Rows (F := F)) : Wts (F := F) :=
  update x it ep (echoNeg ep idx) (surr x W mem) (gate (spikes x W mem) ep (echoNeg ep idx) s) W

end Cert.Spec

end
-- ==== Proof.Glue.lean ====
/-
  What the host operations between the regions compute.

  After the five stretches, the gathered echo buffer holds the echo trace at the negative samples' rows and the gate
  buffer holds the gate column of the spikes buffer, the echo trace, that gathered echo and the activity — the
  specification's functions, since the stretches apply the reference's own operations in the reference's own order.
-/
import proofs.«178930_j11708080849226_2_alg».proof.Proof.Spec
import proofs.«178930_j11708080849226_2_alg».proof.Proof.HostKeep

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- The gathered echo: the echo trace at the negative samples' rows. -/
theorem afterHost_echoNeg (U : Valuation τ sig (Elt F)) :
    afterHost U (Proc.devRef .tc main_v7)
      = Cert.Spec.echoNeg (F := F) (U (Proc.devRef .tc main_arg2)) (U (Proc.devRef .tc main_arg6)) := by
  unfold afterHost
  rw [StableHlo.after_of_writes_sub hostOps1_4 _ hostOps1_4_writes (by decide),
    StableHlo.after_of_writes_sub hostOps1_3 _ hostOps1_3_writes (by decide),
    StableHlo.after_of_writes_sub hostOps1_2 _ hostOps1_2_writes (by decide),
    StableHlo.after_of_writes_sub hostOps1_1 _ hostOps1_1_writes (by decide)]
  dsimp only [hostOps1]
  after_results_simp
  rfl

set_option maxHeartbeats 8000000 in
/-- The gate column, from the spikes buffer, the echo trace, the row numbers and the activity. -/
theorem afterHost_gate (U : Valuation τ sig (Elt F)) :
    afterHost U (Proc.devRef .tc main_v31)
      = Cert.Spec.gate (F := F) (U (Proc.devRef .tc main_v0_0)) (U (Proc.devRef .tc main_arg2))
          (Cert.Spec.echoNeg (F := F) (U (Proc.devRef .tc main_arg2)) (U (Proc.devRef .tc main_arg6))) (U (Proc.devRef .tc main_arg5)) := by
  unfold afterHost
  dsimp only [hostOps1, hostOps1_1, hostOps1_2, hostOps1_3, hostOps1_4]
  after_results_simp
  rfl

end Cert.KernelIdeal.Hand

end
-- ==== Proof.R0Pieces.lean ====
/-
  The first pallas_call (the membrane step): what each kind of point leaves, as values.

  The stores the runs found are read back as the body's arithmetic over the blocks: after a point with l = 0 the
  running-sum block holds 0 + x_l W_l^T, after a later point (old sum) + x_l W_l^T, and after a point with l = 3 the
  two result buffers hold the spike and surrogate functions of the membrane tile and the finished sum. Here x_l is the
  column slice of x the body loads at the point, read off the whole x block.
-/
import proofs.«178930_j11708080849226_2_alg».proof.Proof.R0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The column slice of the x block the body loads at grid coordinates `i`: all 256 rows, the 1024 columns
    starting at 1024 l. -/
abbrev xrect (i : grid0.Coords) : Rect S256x4096 := Rect.unit (s := S256x4096) (k0_off1 i) S256x1024.size (k0_off1_inb i)

/-- After a point with l = 0 the running-sum block holds the zero block plus the first product. -/
theorem sout0_A_eq (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x4096 .f32) (x1 : Vec F S1024x1024 .f32) (x2 : Vec F S256x1024 .f32) :
    sout0_A c i arg2 harg2 arg3 harg3 arg4 harg4 arg5 harg5 arg6 harg6 arg7 harg7 hc0 hc1 x0 x1 x2 = k0_pay2 (View.ld x0 (xrect i)) (k0_pay1 (F := F)) x1 := by
  unfold sout0_A
  rw [View.read_writes_eq_canon _ _ _ (scover0_A c i arg2 harg2 arg3 harg3 arg4 harg4 arg5 harg5 arg6 harg6 arg7 harg7 hc0 hc1 x0 x1 x2)]
  unfold kernelRun0_A
  dsimp only
  sl_unfold_run_names
  rw [View.canon_cons_unit_zero (S := S256x1024) hz2, View.readCov_unit_zero (S := S256x1024) _ hz2]
  simp only [View.readAt_eq_ld, harg2.read_unread, harg3.read_unread, harg4.read_unread, harg7.read_unread,
    View.ld_unit_zero (S := S256x1024) hz2, View.ld_unit_zero (S := S1024x1024) hz2]

/-- After a point with l = 1 or 2 the running-sum block holds the sum the point before left plus this point's product. -/
theorem sout0_B_eq (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x4096 .f32) (x1 : Vec F S1024x1024 .f32) (x2 : Vec F S256x1024 .f32) (xs : Vec F S256x1024 .f32) :
    sout0_B c i arg2 harg2 arg3 harg3 arg4 harg4 arg5 harg5 arg6 harg6 arg7 harg7 hc0 hc1 x0 x1 x2 xs = k0_pay2 (View.ld x0 (xrect i)) xs x1 := by
  unfold sout0_B
  rw [View.read_writes_eq_canon _ _ _ (scover0_B c i arg2 harg2 arg3 harg3 arg4 harg4 arg5 harg5 arg6 harg6 arg7 harg7 hc0 hc1 x0 x1 x2 xs)]
  unfold kernelRun0_B
  dsimp only
  sl_unfold_run_names
  rw [View.canon_unit_zero (S := S256x1024) hz2]
  simp only [View.readAt_eq_ld, harg2.read_unread, harg3.read_unread, harg4.read_unread, harg7.read_unread,
    View.ld_unit_zero (S := S256x1024) hz2, View.ld_unit_zero (S := S1024x1024) hz2]

/-- The same after a point with l = 3. -/
theorem sout0_C_eq (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) :
    sout0_C c i arg2 harg2 arg3 harg3 arg4 harg4 arg5 harg5 arg6 harg6 arg7 harg7 hc0 hc1 x0 x1 x2 xs = k0_pay2 (View.ld x0 (xrect i)) xs x1 := by
  unfold sout0_C
  rw [View.read_writes_eq_canon _ _ _ (scover0_C c i arg2 harg2 arg3 harg3 arg4 harg4 arg5 harg5 arg6 harg6 arg7 harg7 hc0 hc1 x0 x1 x2 xs)]
  unfold kernelRun0_C
  dsimp only
  sl_unfold_run_names
  rw [View.canon_unit_zero (S := S256x1024) hz2]
  simp only [View.readAt_eq_ld, harg2.read_unread, harg3.read_unread, harg4.read_unread, harg7.read_unread,
    View.ld_unit_zero (S := S256x1024) hz2, View.ld_unit_zero (S := S1024x1024) hz2]

/-- After a point with l = 3 the spikes buffer holds the spike function of the membrane tile and the finished sum. -/
theorem out0_C_3_eq (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) :
    out0_C_3 c i arg2 harg2 arg3 harg3 arg4 harg4 arg5 harg5 arg6 harg6 arg7 harg7 hc0 hc1 x0 x1 x2 xs = k0_pay4 x2 (k0_pay2 (View.ld x0 (xrect i)) xs x1) := by
  unfold out0_C_3
  rw [View.read_writes_eq_canon _ _ _ (cover0_C_3 c i arg2 harg2 arg3 harg3 arg4 harg4 arg5 harg5 arg6 harg6 arg7 harg7 hc0 hc1 x0 x1 x2 xs)]
  unfold kernelRun0_C
  dsimp only
  sl_unfold_run_names
  rw [View.canon_unit_zero (S := S256x1024) hz2, View.readCov_unit_zero (S := S256x1024) _ hz2]
  simp only [View.readAt_eq_ld, harg2.read_unread, harg3.read_unread, harg4.read_unread, harg7.read_unread,
    View.ld_unit_zero (S := S256x1024) hz2, View.ld_unit_zero (S := S1024x1024) hz2]

/-- And the surrogate buffer the surrogate function of the same two. -/
theorem out0_C_4_eq (c : Dev nD) (i : grid0.Coords) (arg2 : Memref sig .tc .vmem S256x4096 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x4096 .f32) (x1 : Vec F S1024x1024 .f32) (x2 : Vec F S256x1024 .f32) (xs : Vec F S256x1024 .f32) :
    out0_C_4 c i arg2 harg2 arg3 harg3 arg4 harg4 arg5 harg5 arg6 harg6 arg7 harg7 hc0 hc1 x0 x1 x2 xs = k0_pay5 x2 (k0_pay2 (View.ld x0 (xrect i)) xs x1) := by
  unfold out0_C_4
  rw [View.read_writes_eq_canon _ _ _ (cover0_C_4 c i arg2 harg2 arg3 harg3 arg4 harg4 arg5 harg5 arg6 harg6 arg7 harg7 hc0 hc1 x0 x1 x2 xs)]
  unfold kernelRun0_C
  dsimp only
  sl_unfold_run_names
  rw [View.canon_unit_zero (S := S256x1024) hz2, View.readCov_unit_zero (S := S256x1024) _ hz2]
  simp only [View.readAt_eq_ld, harg2.read_unread, harg3.read_unread, harg4.read_unread, harg7.read_unread,
    View.ld_unit_zero (S := S256x1024) hz2, View.ld_unit_zero (S := S1024x1024) hz2]

end Cert.KernelIdeal.Hand

end
-- ==== Proof.R0Accum.lean ====
/-
  The first pallas_call (the membrane step): the running sum as a recursion over the positions.

  Position t = 4 n + l. The running-sum block after position t is the zero block plus this point's product when
  l = 0, and what the position before left plus this point's product otherwise; where l = 3 the two results are the
  spike and surrogate functions of the membrane tile and that sum. This restates what the buffers hold after each
  point without the three kinds of point in sight.
-/
import proofs.«178930_j11708080849226_2_alg».proof.Proof.R0Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running-sum block after the body at position `n`. -/
def accAt (c : Dev nD) : (n : ℕ) → n < cfg0.N → Vec F S256x1024 .f32
  | 0, hn => k0_pay2 (View.ld (iblk0 V c 0 ⟨0, hn⟩ : Vec F S256x4096 .f32) (xrect (grid0.coords ⟨0, hn⟩))) (k0_pay1 (F := F)) (iblk0 V c 1 ⟨0, hn⟩)
  | n + 1, hn =>
    if (n + 1) % 4 = 0 then
      k0_pay2 (View.ld (iblk0 V c 0 ⟨n + 1, hn⟩ : Vec F S256x4096 .f32) (xrect (grid0.coords ⟨n + 1, hn⟩))) (k0_pay1 (F := F)) (iblk0 V c 1 ⟨n + 1, hn⟩)
    else
      k0_pay2 (View.ld (iblk0 V c 0 ⟨n + 1, hn⟩ : Vec F S256x4096 .f32) (xrect (grid0.coords ⟨n + 1, hn⟩))) (accAt c n (Nat.lt_of_succ_lt hn)) (iblk0 V c 1 ⟨n + 1, hn⟩)

/-- At a position with l = 0 the sum starts again from the zero block. -/
theorem accAt_first (c : Dev nD) (t : Fin cfg0.N) (h0 : t.val % 4 = 0) :
    accAt V c t.val t.isLt = k0_pay2 (View.ld (iblk0 V c 0 t : Vec F S256x4096 .f32) (xrect (grid0.coords t))) (k0_pay1 (F := F)) (iblk0 V c 1 t) := by
  obtain ⟨n, hn⟩ := t
  cases n with
  | zero => exact rfl
  | succ n => exact (if_pos h0).trans rfl

/-- At any other position it continues from the position before. -/
theorem accAt_next (c : Dev nD) (t : Fin cfg0.N) (h0 : ¬t.val % 4 = 0) :
    accAt V c t.val t.isLt = k0_pay2 (View.ld (iblk0 V c 0 t : Vec F S256x4096 .f32) (xrect (grid0.coords t))) (accAt V c (t.val - 1) (Nat.lt_of_le_of_lt (Nat.sub_le _ _) t.isLt)) (iblk0 V c 1 t) := by
  obtain ⟨n, hn⟩ := t
  cases n with
  | zero => exact (by exfalso; (try dsimp only at h0); exact absurd (Nat.zero_mod _) h0)
  | succ n => exact (if_neg h0).trans rfl

/-- The running-sum block after every point is that recursion: by induction on the position, each kind of point by
    what its stores leave. -/
theorem outsAt0_scratch (c : Dev nD) (t : Fin cfg0.N) : (outsAt0 V c t.val t.isLt).2.2 = accAt V c t.val t.isLt := by
  obtain ⟨n, hn⟩ := t
  induction n with
  | zero =>
    have h0 : (⟨0, hn⟩ : Fin cfg0.N).val % 4 = 0 := Nat.zero_mod _
    have h1 : ¬(⟨0, hn⟩ : Fin cfg0.N).val % 4 = 3 := by (try dsimp only); omega
    rw [outsAt0_A V c ⟨0, hn⟩ h0 h1, accAt_first V c ⟨0, hn⟩ h0]
    dsimp only
    exact sout0_A_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩)
  | succ n ih =>
    by_cases h0 : (⟨n + 1, hn⟩ : Fin cfg0.N).val % 4 = 0
    · have h1 : ¬(⟨n + 1, hn⟩ : Fin cfg0.N).val % 4 = 3 := by (try dsimp only at h0 ⊢); omega
      rw [outsAt0_A V c ⟨n + 1, hn⟩ h0 h1, accAt_first V c ⟨n + 1, hn⟩ h0]
      dsimp only
      exact sout0_A_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩)
    · by_cases h1 : (⟨n + 1, hn⟩ : Fin cfg0.N).val % 4 = 3
      · rw [outsAt0_C V c ⟨n + 1, hn⟩ h0 h1, accAt_next V c ⟨n + 1, hn⟩ h0]
        dsimp only
        refine (sout0_C_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) _).trans ?_
        exact congrArg (fun s => k0_pay2 _ s _) (ih (Nat.lt_of_succ_lt hn))
      · rw [outsAt0_B V c ⟨n + 1, hn⟩ h0 h1, accAt_next V c ⟨n + 1, hn⟩ h0]
        dsimp only
        refine (sout0_B_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) _).trans ?_
        exact congrArg (fun s => k0_pay2 _ s _) (ih (Nat.lt_of_succ_lt hn))

/-- Where l = 3 the spikes buffer holds the spike function of the membrane tile and the finished sum. -/
theorem outsAt0_spikes (c : Dev nD) (t : Fin cfg0.N) (h3 : t.val % 4 = 3) :
    (outsAt0 V c t.val t.isLt).1 = k0_pay4 (iblk0 V c 2 t) (accAt V c t.val t.isLt) := by
  have h0 : ¬t.val % 4 = 0 := by omega
  have h1 : t.val % 4 = 3 := h3
  rw [outsAt0_C V c t h0 h1, accAt_next V c t h0]
  dsimp only
  refine (out0_C_3_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) _).trans ?_
  exact congrArg (fun s => k0_pay4 _ (k0_pay2 _ s _))
    (outsAt0_scratch V c ⟨t.val - 1, Nat.lt_of_le_of_lt (Nat.sub_le _ _) t.isLt⟩)

/-- And the surrogate buffer the surrogate function of the same two. -/
theorem outsAt0_surr (c : Dev nD) (t : Fin cfg0.N) (h3 : t.val % 4 = 3) :
    (outsAt0 V c t.val t.isLt).2.1 = k0_pay5 (iblk0 V c 2 t) (accAt V c t.val t.isLt) := by
  have h0 : ¬t.val % 4 = 0 := by omega
  have h1 : t.val % 4 = 3 := h3
  rw [outsAt0_C V c t h0 h1, accAt_next V c t h0]
  dsimp only
  refine (out0_C_4_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) _).trans ?_
  exact congrArg (fun s => k0_pay5 _ (k0_pay2 _ s _))
    (outsAt0_scratch V c ⟨t.val - 1, Nat.lt_of_le_of_lt (Nat.sub_le _ _) t.isLt⟩)

end Cert.KernelIdeal.Hand

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.R0Math.lean ====
/-
  The membrane step, entry by entry, on the extended reals.

  With x the input [256, 4096], W the weights [4096, 4096] and mem the membrane state [256, 4096], the specification's
  membrane after the step at (b, p) is  β · mem(b, p) + ∑ k, x(b, k) · W(p, k)  (a product with the transposed
  weights), the spike is the indicator of that value exceeding one and the surrogate derivative is
  1 / (1 + (π (m − 1))²) of that value m. The kernel's arithmetic at an entry is the same: its running sum adds, tile
  by tile, row b of a column tile of x times a row of the same column tile of W, and its two results are the same two
  functions of β · mem + (the finished sum). The 4096 columns are four tiles of 1024, and a sum over all columns is the
  sum of the four tile sums: associativity and commutativity of addition on the extended reals, nothing about
  finiteness.
-/
import proofs.«178930_j11708080849226_2_alg».proof.Proof.Spec
import proofs.«178930_j11708080849226_2_alg».proof.Proof.Gen.ReferenceIdeal.Read
import proofs.«178930_j11708080849226_2_alg».proof.Proof.Gen.KernelIdeal.Skeleton
import proofs.«178930_j11708080849226_2_alg».proof.Proof.LibMatmulRows
import proofs.«178930_j11708080849226_2_alg».proof.Proof.LibBlockedSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-- The decay factor, the threshold one and the constant π, as the extended reals their single-precision words denote. -/
abbrev cβ : EReal := Ideal.ofBits .f32 0x3F733333#32
abbrev c1 : EReal := Ideal.ofBits .f32 0x3F800000#32
abbrev cπ : EReal := Ideal.ofBits .f32 0x40490FDB#32

/-- The spike of a membrane value: 1 where it exceeds one, else 0. -/
def spikeOf (m : EReal) : EReal := (((Ideal.cmp .ogt m c1).toNat : ℝ) : EReal)
/-- The surrogate derivative of a membrane value. -/
def surrOf (m : EReal) : EReal := Ideal.div c1 (c1 + (cπ * (m - c1)) * (cπ * (m - c1)))

/-- A scalar literal spread over the array reads the literal's value everywhere. -/
theorem fill_apply (w : BitVec 32) (i : Cert.ReferenceIdeal.S256x4096.Idx) :
    Cert.Spec.fill (F := Ideal) w i = Ideal.ofBits .f32 w :=
  broadcastInDim_apply _ _ (constant (F := Ideal) Cert.ReferenceIdeal.S_ .f32 w) i (fun a => a.elim0) (fun a => a.elim0)

/-- The membrane after the step at (b, p): β · mem(b, p) plus row b of x times row p of W. -/
theorem memOut_apply (x : Cert.Spec.Mat (F := Ideal)) (W : Cert.Spec.Wts (F := Ideal)) (mem : Cert.Spec.Mat (F := Ideal))
    (b : Fin 256) (p : Fin 4096) :
    Cert.Spec.memOut x W mem (ix2 b p) = cβ * mem (ix2 b p) + ∑ k : Fin 4096, x (ix2 b k) * W (ix2 p k) := by
  show Cert.Spec.fill (F := Ideal) 0x3F733333#32 (ix2 b p) * mem (ix2 b p)
      + Cert.ReferenceIdeal.Read.val_main_v3 (F := Ideal) x W (ix2 b p) = _
  rw [fill_apply, Cert.ReferenceIdeal.Read.val_main_v3_apply]
  refine congrArg (cβ * mem (ix2 b p) + ·) (Finset.sum_congr rfl fun k _ => ?_)
  rw [Cert.ReferenceIdeal.Read.val_main_v2_apply]
  have e1 : Cert.ReferenceIdeal.Read.lidx_main_v3 (ix2 b p) k = ix2 b k := funext fun a => Fin.ext (by
    match a with
    | ⟨0, _⟩ => rfl
    | ⟨1, _⟩ => rfl)
  have e2 : Cert.ReferenceIdeal.Read.idx_main_v2 (Cert.ReferenceIdeal.Read.ridx_main_v3 (ix2 b p) k) = ix2 p k := funext fun a => Fin.ext (by
    match a with
    | ⟨0, _⟩ => rfl
    | ⟨1, _⟩ => rfl)
  rw [e1, e2]

/-- The spikes at an entry: the spike of the membrane value there. -/
theorem spikes_apply (x : Cert.Spec.Mat (F := Ideal)) (W : Cert.Spec.Wts (F := Ideal)) (mem : Cert.Spec.Mat (F := Ideal))
    (b : Fin 256) (p : Fin 4096) :
    Cert.Spec.spikes x W mem (ix2 b p) = spikeOf (Cert.Spec.memOut x W mem (ix2 b p)) := by
  show FloatOps.uitofp .f32 (FloatOps.cmpf .ogt (Cert.Spec.memOut x W mem (ix2 b p)) (Cert.Spec.fill (F := Ideal) 0x3F800000#32 (ix2 b p))) = _
  rw [fill_apply]
  rfl

/-- The surrogate derivative at an entry: that of the membrane value there. -/
theorem surr_apply (x : Cert.Spec.Mat (F := Ideal)) (W : Cert.Spec.Wts (F := Ideal)) (mem : Cert.Spec.Mat (F := Ideal))
    (b : Fin 256) (p : Fin 4096) :
    Cert.Spec.surr x W mem (ix2 b p) = surrOf (Cert.Spec.memOut x W mem (ix2 b p)) := by
  show Ideal.div (Cert.Spec.fill (F := Ideal) 0x3F800000#32 (ix2 b p)) (Cert.Spec.fill (F := Ideal) 0x3F800000#32 (ix2 b p)
      + (Cert.Spec.fill (F := Ideal) 0x40490FDB#32 (ix2 b p) * (Cert.Spec.memOut x W mem (ix2 b p) - Cert.Spec.fill (F := Ideal) 0x3F800000#32 (ix2 b p)))
        * (Cert.Spec.fill (F := Ideal) 0x40490FDB#32 (ix2 b p) * (Cert.Spec.memOut x W mem (ix2 b p) - Cert.Spec.fill (F := Ideal) 0x3F800000#32 (ix2 b p)))) = _
  simp only [fill_apply]
  rfl

/-! ## The body's arithmetic at an entry -/

/-- The zero block stored when l = 0. -/
theorem pay1_apply (b : Fin 256) (j : Fin 1024) : k0_pay1 (F := Ideal) (ix2 b j) = 0 := by
  unfold k0_pay1
  rw [shapeCast_self]
  exact Ideal.ofBits_zero_f32

/-- The tile product's dimension numbers: the left operand is read at (output row, contraction position), the right
    one at (output column, contraction position). -/
theorem dot_l0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem dot_l1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem dot_r0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem dot_r1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The running sum after a point: what it held, plus row b of the x tile times row j of the W tile. -/
theorem pay2_apply (v6 v7 : Vec Ideal S256x1024 .f32) (v8 : Vec Ideal S1024x1024 .f32) (b : Fin 256) (j : Fin 1024) :
    k0_pay2 v6 v7 v8 (ix2 b j) = v7 (ix2 b j) + ∑ k : Fin 1024, v6 (ix2 b k) * v8 (ix2 j k) := by
  unfold k0_pay2
  rw [shapeCast_self]
  refine congrArg (v7 (ix2 b j) + ·) ?_
  exact Cert.MatmulRows.matmul_rows_rows dot_S256x1024_S1024x1024_S256x1024_1_1_0_0_n_n rfl rfl dot_l0 dot_l1 dot_r0 dot_r1
    none v6 v8 b j

/-- The membrane after the step, from the membrane tile and the finished sum. -/
theorem pay3_apply (v17 v20 : Vec Ideal S256x1024 .f32) (b : Fin 256) (j : Fin 1024) :
    k0_pay3 v17 v20 (ix2 b j) = cβ * v17 (ix2 b j) + v20 (ix2 b j) := rfl

/-- A one-bit word widened to 32 bits and read as a signed integer is the bit read as a natural number. -/
theorem bit_signed_eq (a : BitVec 1) : (((a.setWidth 32).toInt : ℝ) : EReal) = ((a.toNat : ℝ) : EReal) := by
  rcases BitVec.eq_zero_or_eq_one a with h | h <;> subst h <;> simp

/-- The spikes the body stores. -/
theorem pay4_apply (v17 v20 : Vec Ideal S256x1024 .f32) (b : Fin 256) (j : Fin 1024) :
    k0_pay4 v17 v20 (ix2 b j) = spikeOf (cβ * v17 (ix2 b j) + v20 (ix2 b j)) :=
  bit_signed_eq _

/-- The surrogate derivative the body stores. -/
theorem pay5_apply (v17 v20 : Vec Ideal S256x1024 .f32) (b : Fin 256) (j : Fin 1024) :
    k0_pay5 v17 v20 (ix2 b j) = surrOf (cβ * v17 (ix2 b j) + v20 (ix2 b j)) := rfl

/-! ## The contraction, tile by tile

The 4096 columns are four tiles of 1024. Column k of tile l is column 1024 l + k; row j of row tile n of W is row
1024 n + j. (Both are taken modulo 4096 so that they are defined for every natural number; for l, n below 4 nothing is
reduced.) -/

/-- Column `k` of column tile `l`. -/
def colOf (l : ℕ) (k : Fin 1024) : Fin 4096 := ⟨(1024 * l + k.val) % 4096, Nat.mod_lt _ (by decide)⟩
/-- Row `j` of row tile `n`. -/
def rowOf (n : ℕ) (j : Fin 1024) : Fin 4096 := ⟨(1024 * n + j.val) % 4096, Nat.mod_lt _ (by decide)⟩

theorem colOf_val (l : ℕ) (hl : l < 4) (k : Fin 1024) : (colOf l k).val = 1024 * l + k.val :=
  Nat.mod_eq_of_lt (by have := k.isLt; omega)
theorem rowOf_val (n : ℕ) (hn : n < 4) (j : Fin 1024) : (rowOf n j).val = 1024 * n + j.val :=
  Nat.mod_eq_of_lt (by have := j.isLt; omega)

/-- Row b of column tile l of x times row 1024 n + j of column tile l of W. -/
def tileDot (x : S256x4096.Idx → EReal) (W : S4096x4096.Idx → EReal) (n l : ℕ) (b : Fin 256) (j : Fin 1024) : EReal :=
  ∑ k : Fin 1024, x (ix2 b (colOf l k)) * W (ix2 (rowOf n j) (colOf l k))

/-- The sum of the tile products over column tiles 0 … l. -/
def partDot (x : S256x4096.Idx → EReal) (W : S4096x4096.Idx → EReal) (n l : ℕ) (b : Fin 256) (j : Fin 1024) : EReal :=
  ∑ l' ∈ Finset.range (l + 1), tileDot x W n l' b j

theorem partDot_zero (x : S256x4096.Idx → EReal) (W : S4096x4096.Idx → EReal) (n : ℕ) (b : Fin 256) (j : Fin 1024) :
    partDot x W n 0 b j = 0 + tileDot x W n 0 b j := by
  unfold partDot
  rw [Finset.sum_range_one, zero_add]

theorem partDot_succ (x : S256x4096.Idx → EReal) (W : S4096x4096.Idx → EReal) (n l : ℕ) (b : Fin 256) (j : Fin 1024) :
    partDot x W n (l + 1) b j = partDot x W n l b j + tileDot x W n (l + 1) b j :=
  Finset.sum_range_succ _ _

/-- After the last column tile the running sum is the whole contraction: a sum over 4096 = 4 · 1024 columns taken
    tile by tile (associativity and commutativity of the sum only). -/
theorem partDot_three (x : S256x4096.Idx → EReal) (W : S4096x4096.Idx → EReal) (n : ℕ) (b : Fin 256) (j : Fin 1024) :
    partDot x W n 3 b j = ∑ k : Fin 4096, x (ix2 b k) * W (ix2 (rowOf n j) k) := by
  unfold partDot
  rw [Finset.sum_range (fun l' => tileDot x W n l' b j),
    Cert.BlockedSum.sum_by_blocks (N := 4) (R := 1024) (fun k : Fin 4096 => x (ix2 b k) * W (ix2 (rowOf n j) k))]
  refine Finset.sum_congr rfl fun t _ => Finset.sum_congr rfl fun p _ => ?_
  have e : colOf t.val p = ⟨1024 * t.val + p.val, Cert.BlockedSum.block_lt t p⟩ := Fin.ext (colOf_val t.val t.isLt p)
  rw [e]

/-- One step of the running sum, with the two operands named by what they are tiles of: if the x operand is column
    tile `l` of `x` and the W operand is tile (n, l) of `W`, the body adds the tile product to what it held. -/
theorem pay2_tile (x : S256x4096.Idx → EReal) (W : S4096x4096.Idx → EReal) (n l : ℕ)
    (v6 v7 : Vec Ideal S256x1024 .f32) (v8 : Vec Ideal S1024x1024 .f32)
    (h6 : ∀ (b : Fin 256) (k : Fin 1024), v6 (ix2 b k) = x (ix2 b (colOf l k)))
    (h8 : ∀ (j k : Fin 1024), v8 (ix2 j k) = W (ix2 (rowOf n j) (colOf l k)))
    (b : Fin 256) (j : Fin 1024) :
    k0_pay2 v6 v7 v8 (ix2 b j) = v7 (ix2 b j) + tileDot x W n l b j := by
  rw [pay2_apply]
  unfold tileDot
  exact congrArg (v7 (ix2 b j) + ·) (Finset.sum_congr rfl fun k _ => by rw [h6, h8])

end Cert.KernelIdeal.Hand

end
-- ==== Proof.R0Blocks.lean ====
/-
  The membrane step's input blocks, read off the arrays the region is entered with.

  At position t = 4 n + l of the 4 x 4 grid: the x window holds the whole of x, of which the body loads columns
  1024 l … 1024 l + 1023; the W window holds tile (n, l) of W (rows 1024 n …, columns 1024 l …); the membrane window
  holds columns 1024 n … of the membrane state. A block's coordinate in its array is always the block index times the
  block size plus the coordinate inside the block; the block indices are decided once over the sixteen points.
-/
import proofs.«178930_j11708080849226_2_alg».proof.Proof.R0Pieces
import proofs.«178930_j11708080849226_2_alg».proof.Proof.R0Math
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The windows' block indices at position t = 4 n + l, decided over the grid: x has the one block (0, 0); W's block
    is (n, l); the membrane's and the two results' is (0, n); and the second grid coordinate is l. -/
theorem idx_facts0 : ∀ t : Fin cfg0.N,
    win0_0.index t (0 : Fin 2) = 0 ∧ win0_0.index t (1 : Fin 2) = 0
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4
    ∧ win0_4.index t (0 : Fin 2) = 0 ∧ win0_4.index t (1 : Fin 2) = t.val / 4
    ∧ (grid0.coords t (1 : Fin 2)).val = t.val % 4 :=
  (by decide +kernel : ∀ t : Fin grid0.N, _)

/-- A position is below 16. -/
theorem pos_lt (t : Fin cfg0.N) : t.val < 16 := lt_of_lt_of_eq t.isLt N_0

/-- The column slice the body loads at grid coordinates `i`, read off a whole [256, 4096] block: column k of the
    slice is column 1024 l + k of the block. -/
theorem ld_xrect_apply (x0 : Vec F S256x4096 .f32) (i : grid0.Coords) (b : Fin 256) (k : Fin 1024) :
    View.ld x0 (xrect i) (ix2 b k) = x0 (ix2 b (colOf (i 1).val k)) := by
  show x0 ((xrect i).idx (ix2 b k)) = _
  refine congrArg x0 (funext fun a => Fin.ext ?_)
  have hi : (i 1).val < 4 := (i 1).isLt
  have hk : k.val < 1024 := k.isLt
  match a with
  | ⟨0, _⟩ =>
    show k0_off1 i 0 + 1 * b.val = b.val
    rw [k0_off1_eq]
    show 0 + 1 * b.val = b.val
    omega
  | ⟨1, _⟩ =>
    show k0_off1 i 1 + 1 * k.val = (1024 * (i 1).val + k.val) % 4096
    rw [k0_off1_eq]
    show 1024 * (i 1).val + 1 * k.val = (1024 * (i 1).val + k.val) % 4096
    omega

/-- The x window's block at any point is the whole of x. -/
theorem iblk0_0_apply (c : Dev nD) (t : Fin cfg0.N) (b : Fin 256) (q : Fin 4096) :
    (iblk0 V c 0 t : Vec F S256x4096 .f32) (ix2 b q) = V c main_arg0 (ix2 b q) := by
  obtain ⟨e00, e01, -⟩ := idx_facts0 t
  show V c main_arg0 (((cfg0.win 0).blk t).view.emb (ix2 b q)) = V c main_arg0 (ix2 b q)
  refine congrArg (V c main_arg0) (funext fun a => Fin.ext ?_)
  match a with
  | ⟨0, _⟩ => show win0_0.index t (0 : Fin 2) * 256 + 1 * b.val = b.val; rw [e00]; omega
  | ⟨1, _⟩ => show win0_0.index t (1 : Fin 2) * 4096 + 1 * q.val = q.val; rw [e01]; omega

/-- The W window's block at position t = 4 n + l is tile (n, l) of W: its entry (j, k) is W's entry
    (1024 n + j, 1024 l + k). -/
theorem iblk0_1_apply (c : Dev nD) (t : Fin cfg0.N) (j k : Fin 1024) :
    (iblk0 V c 1 t : Vec F S1024x1024 .f32) (ix2 j k) = V c main_arg4 (ix2 (rowOf (t.val / 4) j) (colOf (t.val % 4) k)) := by
  obtain ⟨-, -, e10, e11, -⟩ := idx_facts0 t
  have ht := pos_lt t
  have hj : j.val < 1024 := j.isLt
  have hk : k.val < 1024 := k.isLt
  show V c main_arg4 (((cfg0.win 1).blk t).view.emb (ix2 j k)) = _
  refine congrArg (V c main_arg4) (funext fun a => Fin.ext ?_)
  match a with
  | ⟨0, _⟩ =>
    show win0_1.index t (0 : Fin 2) * 1024 + 1 * j.val = (1024 * (t.val / 4) + j.val) % 4096
    rw [e10]; omega
  | ⟨1, _⟩ =>
    show win0_1.index t (1 : Fin 2) * 1024 + 1 * k.val = (1024 * (t.val % 4) + k.val) % 4096
    rw [e11]; omega

/-- The membrane window's block at position t = 4 n + l is column tile n of the membrane state. -/
theorem iblk0_2_apply (c : Dev nD) (t : Fin cfg0.N) (b : Fin 256) (j : Fin 1024) :
    (iblk0 V c 2 t : Vec F S256x1024 .f32) (ix2 b j) = V c main_arg3 (ix2 b (rowOf (t.val / 4) j)) := by
  obtain ⟨-, -, -, -, e20, e21, -⟩ := idx_facts0 t
  have ht := pos_lt t
  have hj : j.val < 1024 := j.isLt
  show V c main_arg3 (((cfg0.win 2).blk t).view.emb (ix2 b j)) = _
  refine congrArg (V c main_arg3) (funext fun a => Fin.ext ?_)
  match a with
  | ⟨0, _⟩ => show win0_2.index t (0 : Fin 2) * 256 + 1 * b.val = b.val; rw [e20]; omega
  | ⟨1, _⟩ =>
    show win0_2.index t (1 : Fin 2) * 1024 + 1 * j.val = (1024 * (t.val / 4) + j.val) % 4096
    rw [e21]; omega

/-- The x slice the body loads at position t, read off x as the region finds it. -/
theorem xslice_apply (c : Dev nD) (t : Fin cfg0.N) (b : Fin 256) (k : Fin 1024) :
    View.ld (iblk0 V c 0 t : Vec F S256x4096 .f32) (xrect (grid0.coords t)) (ix2 b k) = V c main_arg0 (ix2 b (colOf (t.val % 4) k)) := by
  obtain ⟨-, -, -, -, -, -, -, -, -, -, eg⟩ := idx_facts0 t
  rw [ld_xrect_apply, iblk0_0_apply, eg]

end Cert.KernelIdeal.Hand

end
-- ==== Proof.R0Cover.lean ====
/-
  Region 0 (the membrane step): the geometry of its two output windows, the spikes and the surrogate derivative.

  Both are [256, 4096] arrays written through [256, 1024] blocks. Point t = 4·n + l of the 4 × 4 grid has, for
  both windows, the block of all 256 rows and the columns 1024·n … 1024·n + 1023 (block row 0, block column
  n = t / 4), and the block is written back only at the last point of its block column, t % 4 = 3. So an element
  (b, j) of point t's block sits in the array at row b and column 1024·(t / 4) + j; an index (b, p) lies in the block
  of the point 4·(p / 1024) + 3, which writes back; and the four blocks written back tile the array.
-/
import proofs.«178930_j11708080849226_2_alg».proof.Proof.Gen.KernelIdeal.Points
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window BodyObligation cellOf)
open Cert.KernelIdeal Cert.KernelIdeal.Gen

/-- The printed index maps of the two output windows at every point t of the grid: block row 0 and block column
    t / 4, which is below 4. -/
theorem out_idx_facts0 : ∀ t : Fin cfg0.N,
    win0_3.index t (0 : Fin 2) = 0 ∧ win0_3.index t (1 : Fin 2) = t.val / 4
    ∧ win0_4.index t (0 : Fin 2) = 0 ∧ win0_4.index t (1 : Fin 2) = t.val / 4
    ∧ t.val / 4 < 4 :=
  (by decide +kernel : ∀ t : Fin grid0.N, _)

/-- Every block column has its last point: for q below 4 there is a point t with t % 4 = 3 and t / 4 = q. -/
theorem out_onto0 : ∀ q : Fin 4, ∃ t : Fin cfg0.N, t.val % 4 = 3 ∧ t.val / 4 = q.val :=
  (by decide +kernel : ∀ q : Fin 4, ∃ t : Fin grid0.N, t.val % 4 = 3 ∧ t.val / 4 = q.val)

/-- Column 1024 · (t / 4) + j of point t's block is a column of the array. -/
theorem out_col_lt0 (t : Fin cfg0.N) (j : Fin 1024) : 1024 * (t.val / 4) + j.val < 4096 := by
  have h := (out_idx_facts0 t).2.2.2.2
  have hj : j.val < 1024 := j.isLt
  omega

/-! ## Window 3 (spikes) -/

/-- An index of the spikes array is in point t's block iff each coordinate is in the block's range on its axis. -/
theorem mem_blk0_3 (t : Fin cfg0.N) (i : S256x4096.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v0_0).slice (win0_3.rect t)).set ↔ _
  rw [View.set_slice_whole, Rect.mem_set_unit]
  exact Iff.rfl

/-- The same by coordinates: point t's block is all 256 rows and the columns 1024 · (t / 4) … 1024 · (t / 4) + 1023. -/
theorem mem_blk0_3_iff (t : Fin cfg0.N) (i : S256x4096.Idx) :
    i ∈ ((cfg0.win 3).blk t).view.set ↔ 1024 * (t.val / 4) ≤ (i 1).val ∧ (i 1).val < 1024 * (t.val / 4) + 1024 := by
  obtain ⟨e30, e31, e40, e41, hq⟩ := out_idx_facts0 t
  have hi0 : (i 0).val < 256 := (i 0).isLt
  rw [mem_blk0_3]
  constructor
  · intro h
    have h1 : win0_3.index t (1 : Fin 2) * 1024 ≤ (i 1).val ∧ (i 1).val < win0_3.index t (1 : Fin 2) * 1024 + 1024 := h 1
    omega
  · intro h a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 1024 ≤ (i 1).val ∧ (i 1).val < win0_3.index t (1 : Fin 2) * 1024 + 1024; omega

/-- The four blocks written back tile the spikes array: (b, p) is in the block of the last point of block column
    p / 1024, the point 4 · (p / 1024) + 3, which writes its block back. -/
theorem covered0_3 (i : S256x4096.Idx) : ∃ t : Fin cfg0.N, (cfg0.win 3).flush t = true ∧ i ∈ ((cfg0.win 3).blk t).view.set := by
  have hi1 : (i 1).val < 4096 := (i 1).isLt
  obtain ⟨t, ht3, htq⟩ := out_onto0 ⟨(i 1).val / 1024, by omega⟩
  have hq : t.val / 4 = (i 1).val / 1024 := htq
  refine ⟨t, (flush0_3 t).mpr ht3, ?_⟩
  rw [mem_blk0_3_iff]
  omega

/-- Point t's block of an array G, read at (b, j): G at row b and column 1024 · (t / 4) + j. -/
theorem read_blk0_3_apply {Val : EltTy → Type} (G : S256x4096.Idx → Val .f32) (t : Fin cfg0.N) (b : Fin 256) (j : Fin 1024) :
    ((cfg0.win 3).blk t).view.read Val G (ix2 b j) = G (ix2 b ⟨1024 * (t.val / 4) + j.val, out_col_lt0 t j⟩) := by
  obtain ⟨e30, e31, e40, e41, hq⟩ := out_idx_facts0 t
  rw [View.read_apply]
  show G (((cfg0.win 3).blk t).view.emb (ix2 b j)) = _
  congr 1
  funext a
  apply Fin.ext
  match a with
  | ⟨0, _⟩ => show win0_3.index t (0 : Fin 2) * 256 + 1 * b.val = b.val; omega
  | ⟨1, _⟩ => show win0_3.index t (1 : Fin 2) * 1024 + 1 * j.val = 1024 * (t.val / 4) + j.val; omega

/-- If what the proof data says the spikes staging buffer holds after point t is, entry by entry, the array G at row b
    and column 1024 · (t / 4) + j, then what point t writes back is its block of G. -/
theorem flushed0_3_of_apply {Val : EltTy → Type} {Ix : Type} [DecidableEq Ix] {Name : Type} [DecidableEq Name] {U : Type} [URA U] {Lvl : Type}
    {c : Dev nD} (dat : Dat τ Val Ix Name U Lvl cfg0 c) (G : S256x4096.Idx → Val .f32) (t : Fin cfg0.N)
    (h : ∀ (b : Fin 256) (j : Fin 1024), (dat.after 3 t : S256x1024.Idx → Val .f32) (ix2 b j)
      = G (ix2 b ⟨1024 * (t.val / 4) + j.val, out_col_lt0 t j⟩)) :
    dat.flushed 3 t = ((cfg0.win 3).blk t).view.read Val G := by
  funext y
  obtain ⟨b, j, rfl⟩ : ∃ (b : Fin 256) (j : Fin 1024), (y : S256x1024.Idx) = ix2 b j := ⟨y 0, y 1, eq_ix2 y⟩
  rw [read_blk0_3_apply]
  exact h b j

/-! ## Window 4 (surrogate-derivative) -/

/-- An index of the surrogate-derivative array is in point t's block iff each coordinate is in the block's range on its axis. -/
theorem mem_blk0_4 (t : Fin cfg0.N) (i : S256x4096.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v0_1).slice (win0_4.rect t)).set ↔ _
  rw [View.set_slice_whole, Rect.mem_set_unit]
  exact Iff.rfl

/-- The same by coordinates: point t's block is all 256 rows and the columns 1024 · (t / 4) … 1024 · (t / 4) + 1023. -/
theorem mem_blk0_4_iff (t : Fin cfg0.N) (i : S256x4096.Idx) :
    i ∈ ((cfg0.win 4).blk t).view.set ↔ 1024 * (t.val / 4) ≤ (i 1).val ∧ (i 1).val < 1024 * (t.val / 4) + 1024 := by
  obtain ⟨e30, e31, e40, e41, hq⟩ := out_idx_facts0 t
  have hi0 : (i 0).val < 256 := (i 0).isLt
  rw [mem_blk0_4]
  constructor
  · intro h
    have h1 : win0_4.index t (1 : Fin 2) * 1024 ≤ (i 1).val ∧ (i 1).val < win0_4.index t (1 : Fin 2) * 1024 + 1024 := h 1
    omega
  · intro h a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 1024 ≤ (i 1).val ∧ (i 1).val < win0_4.index t (1 : Fin 2) * 1024 + 1024; omega

/-- The four blocks written back tile the surrogate-derivative array: (b, p) is in the block of the last point of block column
    p / 1024, the point 4 · (p / 1024) + 3, which writes its block back. -/
theorem covered0_4 (i : S256x4096.Idx) : ∃ t : Fin cfg0.N, (cfg0.win 4).flush t = true ∧ i ∈ ((cfg0.win 4).blk t).view.set := by
  have hi1 : (i 1).val < 4096 := (i 1).isLt
  obtain ⟨t, ht3, htq⟩ := out_onto0 ⟨(i 1).val / 1024, by omega⟩
  have hq : t.val / 4 = (i 1).val / 1024 := htq
  refine ⟨t, (flush0_4 t).mpr ht3, ?_⟩
  rw [mem_blk0_4_iff]
  omega

/-- Point t's block of an array G, read at (b, j): G at row b and column 1024 · (t / 4) + j. -/
theorem read_blk0_4_apply {Val : EltTy → Type} (G : S256x4096.Idx → Val .f32) (t : Fin cfg0.N) (b : Fin 256) (j : Fin 1024) :
    ((cfg0.win 4).blk t).view.read Val G (ix2 b j) = G (ix2 b ⟨1024 * (t.val / 4) + j.val, out_col_lt0 t j⟩) := by
  obtain ⟨e30, e31, e40, e41, hq⟩ := out_idx_facts0 t
  rw [View.read_apply]
  show G (((cfg0.win 4).blk t).view.emb (ix2 b j)) = _
  congr 1
  funext a
  apply Fin.ext
  match a with
  | ⟨0, _⟩ => show win0_4.index t (0 : Fin 2) * 256 + 1 * b.val = b.val; omega
  | ⟨1, _⟩ => show win0_4.index t (1 : Fin 2) * 1024 + 1 * j.val = 1024 * (t.val / 4) + j.val; omega

/-- If what the proof data says the surrogate-derivative staging buffer holds after point t is, entry by entry, the array G at row b
    and column 1024 · (t / 4) + j, then what point t writes back is its block of G. -/
theorem flushed0_4_of_apply {Val : EltTy → Type} {Ix : Type} [DecidableEq Ix] {Name : Type} [DecidableEq Name] {U : Type} [URA U] {Lvl : Type}
    {c : Dev nD} (dat : Dat τ Val Ix Name U Lvl cfg0 c) (G : S256x4096.Idx → Val .f32) (t : Fin cfg0.N)
    (h : ∀ (b : Fin 256) (j : Fin 1024), (dat.after 4 t : S256x1024.Idx → Val .f32) (ix2 b j)
      = G (ix2 b ⟨1024 * (t.val / 4) + j.val, out_col_lt0 t j⟩)) :
    dat.flushed 4 t = ((cfg0.win 4).blk t).view.read Val G := by
  funext y
  obtain ⟨b, j, rfl⟩ : ∃ (b : Fin 256) (j : Fin 1024), (y : S256x1024.Idx) = ix2 b j := ⟨y 0, y 1, eq_ix2 y⟩
  rw [read_blk0_4_apply]
  exact h b j

end Cert.KernelIdeal.Hand

end
-- ==== Proof.R0Value.lean ====
/-
  The membrane step's two results, as the specification's functions of the arrays the region is entered with.

  Write a position of the 4 x 4 grid as t = 4 n + l. By induction on the position, the running-sum block after
  position t holds at (b, j) the sum over column tiles 0 … l of row b of the tile of x times row 1024 n + j of the tile of
  W. At l = 3 this is the whole contraction over the 4096 columns, the body's membrane value β · mem + (that sum) is the
  specification's at (b, 1024 n + j), and the two buffers the body fills hold the specification's spikes and surrogate
  derivative there. What such a point writes back is therefore its block — columns 1024 n … 1024 n + 1023 — of the
  specification's arrays, and the four such blocks tile each result array.
-/
import proofs.«178930_j11708080849226_2_alg».proof.Proof.R0Accum
import proofs.«178930_j11708080849226_2_alg».proof.Proof.R0Blocks
import proofs.«178930_j11708080849226_2_alg».proof.Proof.R0Cover
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The running-sum block after position 4 n + l holds, at (b, j), the sum over column tiles 0 … l of row b of the
    tile of x times row 1024 n + j of the tile of W: at l = 0 the body adds the first product to the zero block, at
    l > 0 it adds the next product to what the position before left. -/
theorem accAt_apply (c : Dev nD) : ∀ (n : ℕ) (hn : n < cfg0.N) (b : Fin 256) (j : Fin 1024),
    accAt V c n hn (ix2 b j) = partDot (V c main_arg0) (V c main_arg4) (n / 4) (n % 4) b j
  | 0, hn, b, j => by
    rw [accAt_first V c ⟨0, hn⟩ rfl]
    refine (pay2_tile (V c main_arg0) (V c main_arg4) (0 / 4) (0 % 4)
      (View.ld (iblk0 V c 0 ⟨0, hn⟩ : Vec Ideal S256x4096 .f32) (xrect (grid0.coords ⟨0, hn⟩))) (k0_pay1 (F := Ideal)) (iblk0 V c 1 ⟨0, hn⟩)
      (fun b k => xslice_apply V c ⟨0, hn⟩ b k) (fun j k => iblk0_1_apply V c ⟨0, hn⟩ j k) b j).trans ?_
    rw [pay1_apply]
    exact (partDot_zero _ _ _ b j).symm
  | n + 1, hn, b, j => by
    by_cases h0 : (n + 1) % 4 = 0
    · rw [accAt_first V c ⟨n + 1, hn⟩ h0]
      refine (pay2_tile (V c main_arg0) (V c main_arg4) ((n + 1) / 4) ((n + 1) % 4)
        (View.ld (iblk0 V c 0 ⟨n + 1, hn⟩ : Vec Ideal S256x4096 .f32) (xrect (grid0.coords ⟨n + 1, hn⟩))) (k0_pay1 (F := Ideal)) (iblk0 V c 1 ⟨n + 1, hn⟩)
        (fun b k => xslice_apply V c ⟨n + 1, hn⟩ b k) (fun j k => iblk0_1_apply V c ⟨n + 1, hn⟩ j k) b j).trans ?_
      rw [pay1_apply, h0]
      exact (partDot_zero _ _ _ b j).symm
    · rw [accAt_next V c ⟨n + 1, hn⟩ h0]
      refine (pay2_tile (V c main_arg0) (V c main_arg4) ((n + 1) / 4) ((n + 1) % 4)
        (View.ld (iblk0 V c 0 ⟨n + 1, hn⟩ : Vec Ideal S256x4096 .f32) (xrect (grid0.coords ⟨n + 1, hn⟩)))
        (accAt V c ((⟨n + 1, hn⟩ : Fin cfg0.N).val - 1) (Nat.lt_of_le_of_lt (Nat.sub_le _ _) (⟨n + 1, hn⟩ : Fin cfg0.N).isLt)) (iblk0 V c 1 ⟨n + 1, hn⟩)
        (fun b k => xslice_apply V c ⟨n + 1, hn⟩ b k) (fun j k => iblk0_1_apply V c ⟨n + 1, hn⟩ j k) b j).trans ?_
      show accAt V c n (Nat.lt_of_succ_lt hn) (ix2 b j) + _ = _
      rw [accAt_apply c n (Nat.lt_of_succ_lt hn) b j]
      have e1 : (n + 1) / 4 = n / 4 := by omega
      have e2 : (n + 1) % 4 = n % 4 + 1 := by omega
      rw [e1, e2, partDot_succ]

/-- The membrane value the body forms at a point with l = 3, at (b, j) of row tile n: the specification's membrane
    after the step at (b, 1024 n + j). -/
theorem membrane_apply (c : Dev nD) (t : Fin cfg0.N) (h3 : t.val % 4 = 3) (b : Fin 256) (j : Fin 1024) :
    cβ * (iblk0 V c 2 t : Vec Ideal S256x1024 .f32) (ix2 b j) + accAt V c t.val t.isLt (ix2 b j)
      = Cert.Spec.memOut (F := Ideal) (V c main_arg0) (V c main_arg4) (V c main_arg3) (ix2 b (rowOf (t.val / 4) j)) := by
  rw [iblk0_2_apply V c t b j, accAt_apply V c t.val t.isLt b j, h3, partDot_three, memOut_apply]

/-- The spikes buffer after a point with l = 3 holds, at (b, j), the specification's spikes at (b, 1024 n + j). -/
theorem after0_3_apply (c : Dev nD) (t : Fin cfg0.N) (h3 : t.val % 4 = 3) (b : Fin 256) (j : Fin 1024) :
    ((dat0 V c).after 3 t : Vec Ideal S256x1024 .f32) (ix2 b j)
      = Cert.Spec.spikes (F := Ideal) (V c main_arg0) (V c main_arg4) (V c main_arg3) (ix2 b (rowOf (t.val / 4) j)) := by
  rw [after0_3, outsAt0_spikes V c t h3]
  refine (pay4_apply (iblk0 V c 2 t) (accAt V c t.val t.isLt) b j).trans ?_
  rw [membrane_apply V c t h3 b j, spikes_apply]

/-- The surrogate buffer after a point with l = 3 holds, at (b, j), the specification's surrogate derivative at
    (b, 1024 n + j). -/
theorem after0_4_apply (c : Dev nD) (t : Fin cfg0.N) (h3 : t.val % 4 = 3) (b : Fin 256) (j : Fin 1024) :
    ((dat0 V c).after 4 t : Vec Ideal S256x1024 .f32) (ix2 b j)
      = Cert.Spec.surr (F := Ideal) (V c main_arg0) (V c main_arg4) (V c main_arg3) (ix2 b (rowOf (t.val / 4) j)) := by
  rw [after0_4, outsAt0_surr V c t h3]
  refine (pay5_apply (iblk0 V c 2 t) (accAt V c t.val t.isLt) b j).trans ?_
  rw [membrane_apply V c t h3 b j, surr_apply]

/-- What a point with l = 3 writes back for the spikes is its block (columns 1024 n …) of the specification's
    spikes of the arrays the region was entered with. -/
theorem flushed0_3_eq (c : Dev nD) (t : Fin cfg0.N) (h3 : t.val % 4 = 3) :
    (dat0 V c).flushed 3 t = ((cfg0.win 3).blk t).view.read (Elt Ideal)
      (Cert.Spec.spikes (F := Ideal) (V c main_arg0) (V c main_arg4) (V c main_arg3)) := by
  show (cfg0.win 3).cut (grid0.coords t) ((dat0 V c).after 3 t) = _
  funext y
  obtain ⟨b, j, rfl⟩ : ∃ (b : Fin 256) (j : Fin 1024), y = ix2 b j := ⟨y 0, y 1, eq_ix2 y⟩
  refine (after0_3_apply V c t h3 b j).trans ?_
  obtain ⟨-, -, -, -, -, -, e30, e31, -⟩ := idx_facts0 t
  have ht := pos_lt t
  have hj : j.val < 1024 := j.isLt
  show Cert.Spec.spikes (F := Ideal) (V c main_arg0) (V c main_arg4) (V c main_arg3) (ix2 b (rowOf (t.val / 4) j))
    = Cert.Spec.spikes (F := Ideal) (V c main_arg0) (V c main_arg4) (V c main_arg3) (((cfg0.win 3).blk t).view.emb (ix2 b j))
  refine congrArg _ (funext fun a => Fin.ext ?_)
  match a with
  | ⟨0, _⟩ => show b.val = win0_3.index t (0 : Fin 2) * 256 + 1 * b.val; rw [e30]; omega
  | ⟨1, _⟩ =>
    show (1024 * (t.val / 4) + j.val) % 4096 = win0_3.index t (1 : Fin 2) * 1024 + 1 * j.val
    rw [e31]; omega

/-- The same for the surrogate derivative. -/
theorem flushed0_4_eq (c : Dev nD) (t : Fin cfg0.N) (h3 : t.val % 4 = 3) :
    (dat0 V c).flushed 4 t = ((cfg0.win 4).blk t).view.read (Elt Ideal)
      (Cert.Spec.surr (F := Ideal) (V c main_arg0) (V c main_arg4) (V c main_arg3)) := by
  show (cfg0.win 4).cut (grid0.coords t) ((dat0 V c).after 4 t) = _
  funext y
  obtain ⟨b, j, rfl⟩ : ∃ (b : Fin 256) (j : Fin 1024), y = ix2 b j := ⟨y 0, y 1, eq_ix2 y⟩
  refine (after0_4_apply V c t h3 b j).trans ?_
  obtain ⟨-, -, -, -, -, -, -, -, e40, e41, -⟩ := idx_facts0 t
  have ht := pos_lt t
  have hj : j.val < 1024 := j.isLt
  show Cert.Spec.surr (F := Ideal) (V c main_arg0) (V c main_arg4) (V c main_arg3) (ix2 b (rowOf (t.val / 4) j))
    = Cert.Spec.surr (F := Ideal) (V c main_arg0) (V c main_arg4) (V c main_arg3) (((cfg0.win 4).blk t).view.emb (ix2 b j))
  refine congrArg _ (funext fun a => Fin.ext ?_)
  match a with
  | ⟨0, _⟩ => show b.val = win0_4.index t (0 : Fin 2) * 256 + 1 * b.val; rw [e40]; omega
  | ⟨1, _⟩ =>
    show (1024 * (t.val / 4) + j.val) % 4096 = win0_4.index t (1 : Fin 2) * 1024 + 1 * j.val
    rw [e41]; omega

/-- The spikes array after the region: the specification's spikes of the arrays the region was entered with. The four
    positions with l = 3 write back the four column blocks, which tile the array. -/
theorem final0_3 (V : (c : Dev nD) → (b : Ref sig .tc) → Buf (Elt Ideal) ((c : Thread nD τ).loc b)) (c : Dev nD) :
    (dat0 (F := Ideal) V c).arrAt 3 cfg0.N = Cert.Spec.spikes (F := Ideal) (V c main_arg0) (V c main_arg4) (V c main_arg3) :=
  (dat0 V c).arrAt_eq_of_cover 3 _ (fun t hf => flushed0_3_eq V c t ((flush0_3 t).mp hf)) covered0_3

/-- The surrogate array after the region: the specification's surrogate derivative of the same arrays. -/
theorem final0_4 (V : (c : Dev nD) → (b : Ref sig .tc) → Buf (Elt Ideal) ((c : Thread nD τ).loc b)) (c : Dev nD) :
    (dat0 (F := Ideal) V c).arrAt 4 cfg0.N = Cert.Spec.surr (F := Ideal) (V c main_arg0) (V c main_arg4) (V c main_arg3) :=
  (dat0 V c).arrAt_eq_of_cover 4 _ (fun t hf => flushed0_4_eq V c t ((flush0_4 t).mp hf)) covered0_4

end Cert.KernelIdeal.Hand

end
-- ==== Proof.R1ValueSpec.lean ====
/-
  The specification's weight update, read at one entry.

  At row p and column q of the [4096, 4096] result the update is

      W(p,q) − lr · ( (∑ b : Fin 256, (−dl(b,0) · (ep(b,p) − en(b,p)) · su(b,p)) · (β · it(b,q) + x(b,q))) / 2²⁰ ):

  the host's contraction over the first axis of both [256, 4096] operands is the sum over the 256 batch rows of
  column p of the left operand times column q of the right one; every other operation acts entry by entry, a
  scalar literal spread over an array reads as the literal, and the gate column spread along its unit axis reads
  as the column's entry of the same row.
-/
import proofs.«178930_j11708080849226_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.SpecRead

open Idealize.ShloMosaic Idealize.ShloMosaic.ValueIdx
open Cert.ReferenceIdeal Cert.ReferenceIdeal.Gen

/-- A scalar literal spread over an array reads, at every index, as the literal. -/
theorem fill_apply {t : Shape} (h : (S_ : Shape).BroadcastsInDim t ![]) (b : BitVec 32) (i : t.Idx) :
    broadcastInDim t ![] h (constant (F := Ideal) S_ .f32 b) i = Ideal.ofBits .f32 b :=
  broadcastInDim_apply _ h (constant (F := Ideal) S_ .f32 b) i (fun a => a.elim0) (fun a => a.elim0)

/-- A [256, 1] column spread along its unit axis to [256, 4096] reads, at (b, p), the column's entry of row b. -/
theorem column_apply (v : S256x1.Idx → EReal) (b : Fin 256) (p : Fin 4096) :
    broadcastInDim S256x4096 ![0, 1] bcast_S256x1_S256x4096_0_1 v (ix2 b p) = v (ix2 b (0 : Fin 1)) :=
  broadcastInDim_apply _ bcast_S256x1_S256x4096_0_1 v (ix2 b p) (ix2 b (0 : Fin 1)) (fun a => match a with
    | ⟨0, _⟩ => by show b.val = if (256 : Nat) = 1 then 0 else b.val; rw [if_neg (by decide)]
    | ⟨1, _⟩ => by show 0 = if (1 : Nat) = 1 then 0 else p.val; rw [if_pos rfl])

/-- The host's division acts entry by entry. -/
theorem hostDivf_apply {s : Shape} {φ : FTy} (a b : FVec Ideal s φ) (i : s.Idx) : Host.divf a b i = Ideal.div (a i) (b i) := rfl

/-- The host's negation acts entry by entry. -/
theorem hostNegf_apply {s : Shape} {φ : FTy} (a : FVec Ideal s φ) (i : s.Idx) : Host.negf a i = -(a i) := rfl

theorem lhs_0 (i : S4096x4096.Idx) (k : dot_S256x4096_S256x4096_S4096x4096_0_0_1_1_n_n.contr.Idx) :
    (dot_S256x4096_S256x4096_S4096x4096_0_0_1_1_n_n.lhsIdx i k 0).val = (k ⟨0, by decide⟩).val :=
  dot_S256x4096_S256x4096_S4096x4096_0_0_1_1_n_n.lhsIdx_val_of_single rfl i k
theorem lhs_1 (i : S4096x4096.Idx) (k : dot_S256x4096_S256x4096_S4096x4096_0_0_1_1_n_n.contr.Idx) :
    (dot_S256x4096_S256x4096_S4096x4096_0_0_1_1_n_n.lhsIdx i k 1).val = (i 0).val := by
  unfold DotDims.lhsIdx
  rw [dif_neg (show ¬(1 : Fin S256x4096.rank) ∈ dot_S256x4096_S256x4096_S4096x4096_0_0_1_1_n_n.lhsBatch by decide),
    dif_pos (show (1 : Fin S256x4096.rank) ∈ dot_S256x4096_S256x4096_S4096x4096_0_0_1_1_n_n.lhsNonContracting by decide)]
  rfl
theorem rhs_0 (i : S4096x4096.Idx) (k : dot_S256x4096_S256x4096_S4096x4096_0_0_1_1_n_n.contr.Idx) :
    (dot_S256x4096_S256x4096_S4096x4096_0_0_1_1_n_n.rhsIdx i k 0).val = (k ⟨0, by decide⟩).val :=
  dot_S256x4096_S256x4096_S4096x4096_0_0_1_1_n_n.rhsIdx_val_of_single rfl i k
theorem rhs_1 (i : S4096x4096.Idx) (k : dot_S256x4096_S256x4096_S4096x4096_0_0_1_1_n_n.contr.Idx) :
    (dot_S256x4096_S256x4096_S4096x4096_0_0_1_1_n_n.rhsIdx i k 1).val = (i 1).val := by
  unfold DotDims.rhsIdx
  rw [dif_neg (show ¬(1 : Fin S256x4096.rank) ∈ dot_S256x4096_S256x4096_S4096x4096_0_0_1_1_n_n.rhsBatch by decide),
    dif_pos (show (1 : Fin S256x4096.rank) ∈ dot_S256x4096_S256x4096_S4096x4096_0_0_1_1_n_n.rhsNonContracting by decide)]
  rfl

/-- The host's product contracting the first axis of both [256, 4096] operands, read at (p, q): the sum over the
    256 rows of the left operand's column p times the right operand's column q. -/
theorem dot_apply (L R : FVec Ideal S256x4096 .f32) (p q : Fin 4096) :
    Host.dotGeneral dot_S256x4096_S256x4096_S4096x4096_0_0_1_1_n_n none L R (ix2 p q)
      = ∑ b : Fin 256, L (ix2 b p) * R (ix2 b q) := by
  simp only [Host.dotGeneral]
  rw [Ideal.dotGeneral_apply, ← Equiv.sum_comp (contrEquiv1 dot_S256x4096_S256x4096_S4096x4096_0_0_1_1_n_n 256 rfl rfl).symm]
  refine Finset.sum_congr rfl fun k _ => ?_
  have hk := contrEquiv1_symm_val dot_S256x4096_S256x4096_S4096x4096_0_0_1_1_n_n 256 rfl rfl k
  have el : dot_S256x4096_S256x4096_S4096x4096_0_0_1_1_n_n.lhsIdx (ix2 p q)
      ((contrEquiv1 dot_S256x4096_S256x4096_S4096x4096_0_0_1_1_n_n 256 rfl rfl).symm k) = ix2 k p := funext fun a => Fin.ext (by
    match a with
    | ⟨0, _⟩ => exact (lhs_0 _ _).trans hk
    | ⟨1, _⟩ => exact lhs_1 _ _)
  have er : dot_S256x4096_S256x4096_S4096x4096_0_0_1_1_n_n.rhsIdx (ix2 p q)
      ((contrEquiv1 dot_S256x4096_S256x4096_S4096x4096_0_0_1_1_n_n 256 rfl rfl).symm k) = ix2 k q := funext fun a => Fin.ext (by
    match a with
    | ⟨0, _⟩ => exact (rhs_0 _ _).trans hk
    | ⟨1, _⟩ => exact rhs_1 _ _)
  rw [el, er]

/-- The updated weights at (p, q). -/
theorem update_apply (x it ep en su : FVec Ideal S256x4096 .f32) (dl : FVec Ideal S256x1 .f32) (W : FVec Ideal S4096x4096 .f32)
    (p q : Fin 4096) :
    Cert.Spec.update (F := Ideal) x it ep en su dl W (ix2 p q)
      = W (ix2 p q) - Ideal.ofBits .f32 0x3C23D70A#32 *
          Ideal.div (∑ b : Fin 256, (-(dl (ix2 b (0 : Fin 1))) * (ep (ix2 b p) - en (ix2 b p)) * su (ix2 b p))
              * (Ideal.ofBits .f32 0x3F733333#32 * it (ix2 b q) + x (ix2 b q)))
            (Ideal.ofBits .f32 0x49800000#32) := by
  unfold Cert.Spec.update Cert.Spec.fill
  rw [subf_apply, mulf_apply, hostDivf_apply, fill_apply, fill_apply, dot_apply]
  congr 3
  refine Finset.sum_congr rfl fun b _ => ?_
  rw [mulf_apply, mulf_apply, subf_apply, addf_apply, mulf_apply, fill_apply, column_apply, hostNegf_apply]

end Cert.SpecRead

end
-- ==== Proof.LibMatmulCols.lean ====
/-
  A rank-2 matrix product whose contraction runs along the FIRST axis of both operands, read at an entry.

  `matmul_cols_cols`: a matrix unit's product of a [K, A] by a [K, B] matrix into a zero accumulator, contracting
  axis 0 of the left operand with axis 0 of the right one, read at (p, q), is ∑ k, L(k,p) · R(k,q): COLUMN p of the
  left operand times column q of the right one (the product of the left operand's transpose with the right operand).
  Stated for any dimension record whose four index facts (the left index takes the contraction position and the output
  row, the right index the contraction position and the output column) are supplied.
-/
import Idealize.ShloMosaic.Lib.ValueIdx
import Idealize.ShloMosaic.Lib.Pipeline.Value
import Idealize.ShloMosaic.PureOps.Ideal.Laws

noncomputable section

namespace Cert.MatmulCols

open Idealize.ShloMosaic Idealize.ShloMosaic.ValueIdx

/-- A matrix product into a zero accumulator that contracts the first axis of both operands, read at (p, q): the sum
    over the contracted axis of the left operand's column p times the right operand's column q. -/
theorem matmul_cols_cols {A K B : ℕ} {φ₁ φ₂ : FTy}
    (d : DotDims ⟨2, ![K, A]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (q ⟨0, by omega⟩).val)
    (hl1 : ∀ (i : (⟨2, ![A, B]⟩ : Shape).Idx) (q : d.contr.Idx), (d.lhsIdx i q 1).val = (i 0).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![K, A]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 k p) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.MatmulCols

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.R1ValuePay.lean ====
/-
  The weight-update body's stored value, read at one entry of its [1024, 1024] block.

  With x, it the loaded column slices of the input and of its trace, dl the gate column, ep, en, su the loaded
  tiles of the two echo arrays and of the surrogate derivative and w the weights' tile, the stored block at
  (j, k) is

      w(j,k) − lr · ( (∑ b : Fin 256, (−dl(b,0) · (ep(b,j) − en(b,j)) · su(b,j)) · (β · it(b,k) + x(b,k))) / 2²⁰ ).

  The matrix unit contracts the first axis of both [256, 1024] operands into a zero accumulator, so its entry
  (j, k) is the sum over the 256 rows of column j of the left operand times column k of the right one; narrowing
  the operands' format changes no exact value; the column 0 − dl is −dl; a cast between equal shapes is the
  identity; and the column spread along its unit axis reads as its entry of the same row.
-/
import proofs.«178930_j11708080849226_2_alg».proof.Proof.Gen.KernelIdeal.Skeleton
import proofs.«178930_j11708080849226_2_alg».proof.Proof.LibMatmulCols
import proofs.«178930_j11708080849226_2_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

theorem dw_lhs_0 (i : S1024x1024.Idx) (k : dot_S256x1024_S256x1024_S1024x1024_0_0_1_1_n_n.contr.Idx) :
    (dot_S256x1024_S256x1024_S1024x1024_0_0_1_1_n_n.lhsIdx i k 0).val = (k ⟨0, by decide⟩).val :=
  dot_S256x1024_S256x1024_S1024x1024_0_0_1_1_n_n.lhsIdx_val_of_single rfl i k
theorem dw_lhs_1 (i : S1024x1024.Idx) (k : dot_S256x1024_S256x1024_S1024x1024_0_0_1_1_n_n.contr.Idx) :
    (dot_S256x1024_S256x1024_S1024x1024_0_0_1_1_n_n.lhsIdx i k 1).val = (i 0).val := by
  unfold DotDims.lhsIdx
  rw [dif_neg (show ¬(1 : Fin S256x1024.rank) ∈ dot_S256x1024_S256x1024_S1024x1024_0_0_1_1_n_n.lhsBatch by decide),
    dif_pos (show (1 : Fin S256x1024.rank) ∈ dot_S256x1024_S256x1024_S1024x1024_0_0_1_1_n_n.lhsNonContracting by decide)]
  rfl
theorem dw_rhs_0 (i : S1024x1024.Idx) (k : dot_S256x1024_S256x1024_S1024x1024_0_0_1_1_n_n.contr.Idx) :
    (dot_S256x1024_S256x1024_S1024x1024_0_0_1_1_n_n.rhsIdx i k 0).val = (k ⟨0, by decide⟩).val :=
  dot_S256x1024_S256x1024_S1024x1024_0_0_1_1_n_n.rhsIdx_val_of_single rfl i k
theorem dw_rhs_1 (i : S1024x1024.Idx) (k : dot_S256x1024_S256x1024_S1024x1024_0_0_1_1_n_n.contr.Idx) :
    (dot_S256x1024_S256x1024_S1024x1024_0_0_1_1_n_n.rhsIdx i k 1).val = (i 1).val := by
  unfold DotDims.rhsIdx
  rw [dif_neg (show ¬(1 : Fin S256x1024.rank) ∈ dot_S256x1024_S256x1024_S1024x1024_0_0_1_1_n_n.rhsBatch by decide),
    dif_pos (show (1 : Fin S256x1024.rank) ∈ dot_S256x1024_S256x1024_S1024x1024_0_0_1_1_n_n.rhsNonContracting by decide)]
  rfl

/-- The matrix unit's product of the body, into the zero accumulator, at (j, k): the sum over the 256 rows of the
    left operand's column j times the right operand's column k. -/
theorem dw_matmul_apply {φ₁ φ₂ : FTy} (L : FVec Ideal S256x1024 φ₁) (R : FVec Ideal S256x1024 φ₂) (j k : Fin 1024) :
    FloatOps.matmul dot_S256x1024_S256x1024_S1024x1024_0_0_1_1_n_n none L R (constant S1024x1024 .f32 0x00000000#32) (ix2 j k)
      = ∑ b : Fin 256, L (ix2 b j) * R (ix2 b k) :=
  Cert.MatmulCols.matmul_cols_cols dot_S256x1024_S256x1024_S1024x1024_0_0_1_1_n_n rfl rfl
    dw_lhs_0 dw_lhs_1 dw_rhs_0 dw_rhs_1 none L R j k

/-- The stored block at (j, k). -/
theorem updatePay_apply (v3 v5 : Vec Ideal S256x1024 .f32) (v9 : Vec Ideal S256x1 .f32) (v13 v14 v19 : Vec Ideal S256x1024 .f32)
    (v27 : Vec Ideal S1024x1024 .f32) (j k : Fin 1024) :
    k1_pay1 v3 v5 v9 v13 v14 v19 v27 (ix2 j k)
      = v27 (ix2 j k) - Ideal.ofBits .f32 0x3C23D70A#32 *
          Ideal.div (∑ b : Fin 256, (-(v9 (ix2 b (0 : Fin 1))) * (v13 (ix2 b j) - v14 (ix2 b j)) * v19 (ix2 b j))
              * (Ideal.ofBits .f32 0x3F733333#32 * v5 (ix2 b k) + v3 (ix2 b k)))
            (Ideal.ofBits .f32 0x49800000#32) := by
  unfold k1_pay1
  simp only [shapeCast_self]
  rw [subf_apply, mulf_apply, divf_apply, broadcast_apply, broadcast_apply]
  simp only [matmul]
  rw [dw_matmul_apply]
  congr 3
  refine Finset.sum_congr rfl fun b _ => ?_
  rw [truncf_apply, truncf_apply, mulf_apply, mulf_apply, subf_apply, addf_apply, mulf_apply, broadcast_apply,
    Cert.Keepdims.broadcastTo_a1_ab_apply, subf_apply, broadcast_apply]
  show (Ideal.ofBits .f32 0x00000000#32 - v9 (ix2 b (0 : Fin 1))) * (v13 (ix2 b j) - v14 (ix2 b j)) * v19 (ix2 b j)
      * (Ideal.ofBits .f32 0x3F733333#32 * v5 (ix2 b k) + v3 (ix2 b k)) = _
  rw [Ideal.ofBits_zero_f32, zero_sub]

end Cert.KernelIdeal.Hand

end
-- ==== Proof.R1ValueBlocks.lean ====
/-
  Region 1 (the weight update): what a grid point writes back is its block of the specification's update.

  Point t of the 4 × 4 grid, with block row n and block column l (the output window's block indices at t), is given
  the whole input and input-trace arrays (its body slices their columns 1024·l …), the tiles n of the two echo
  arrays and of the surrogate derivative (columns 1024·n …), the whole gate column and the tile (n, l) of the
  weights. An element of a window's block sits in its array at block index × block size + its coordinate inside
  the block. So entry (j, k) of the stored block, a sum over the 256 batch rows of products of entries of the
  loaded blocks, is the specification's update at row 1024·n + j and column 1024·l + k of the arrays the region
  was entered with: the two sides are the same sum of the same products.
-/
import proofs.«178930_j11708080849226_2_alg».proof.Proof.R1Frame
import proofs.«178930_j11708080849226_2_alg».proof.Proof.Spec
import proofs.«178930_j11708080849226_2_alg».proof.Proof.R1ValueSpec
import proofs.«178930_j11708080849226_2_alg».proof.Proof.R1ValuePay
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

-- the buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-- The printed index maps at every point of the grid, relative to the output window's block row and block column:
    the three whole windows sit at block (0, 0); the echo and surrogate tiles at block column = the output's block
    row; the weights' tile moves with the output's; the body's column offset is 1024 × the output's block column;
    and the output's block indices are below 4. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = win1_7.index t (0 : Fin 2)
    ∧ win1_3.index t (0 : Fin 2) = 0 ∧ win1_3.index t (1 : Fin 2) = win1_7.index t (0 : Fin 2)
    ∧ win1_4.index t (0 : Fin 2) = 0 ∧ win1_4.index t (1 : Fin 2) = win1_7.index t (0 : Fin 2)
    ∧ win1_5.index t (0 : Fin 2) = 0 ∧ win1_5.index t (1 : Fin 2) = 0
    ∧ win1_6.index t (0 : Fin 2) = win1_7.index t (0 : Fin 2) ∧ win1_6.index t (1 : Fin 2) = win1_7.index t (1 : Fin 2)
    ∧ k1_off1 (grid1.coords t) = ![0, 1024 * win1_7.index t (1 : Fin 2)]
    ∧ win1_7.index t (0 : Fin 2) < 4 ∧ win1_7.index t (1 : Fin 2) < 4 :=
  (by decide +kernel : ∀ t : Fin grid1.N, _)

/-- Every block of the result is some point's. -/
theorem idx_onto1 : ∀ (q0 q1 : Fin 4), ∃ t : Fin cfg1.N, win1_7.index t = ![q0.val, q1.val] :=
  (by decide +kernel : ∀ (q0 q1 : Fin 4), ∃ t : Fin grid1.N, win1_7.index t = ![q0.val, q1.val])

/-! ## Each window's block, read at the array the region was entered with

An element of window w's block at point t sits in the window's array, on each axis, at the block index at t times
the block's size plus the element's own coordinate. -/

/-- The input window's block (the whole array). -/
theorem iblk1_0_apply (c : Dev nD) (t : Fin cfg1.N) (y : S256x4096.Idx) (i : S256x4096.Idx)
    (h0 : (i 0).val = win1_0.index t (0 : Fin 2) * 256 + (y 0).val) (h1 : (i 1).val = win1_0.index t (1 : Fin 2) * 4096 + (y 1).val) :
    (iblk1 V c 0 t : Vec Ideal S256x4096 .f32) y = (V c main_arg0 : S256x4096.Idx → Elt Ideal .f32) i := by
  unfold iblk1
  rw [View.read_apply]
  show V c main_arg0 _ = V c main_arg0 _
  congr 1
  funext a
  apply Fin.ext
  match a with
  | ⟨0, _⟩ => show win1_0.index t (0 : Fin 2) * 256 + 1 * (y 0).val = (i 0).val; omega
  | ⟨1, _⟩ => show win1_0.index t (1 : Fin 2) * 4096 + 1 * (y 1).val = (i 1).val; omega

/-- The input-trace window's block (the whole array). -/
theorem iblk1_1_apply (c : Dev nD) (t : Fin cfg1.N) (y : S256x4096.Idx) (i : S256x4096.Idx)
    (h0 : (i 0).val = win1_1.index t (0 : Fin 2) * 256 + (y 0).val) (h1 : (i 1).val = win1_1.index t (1 : Fin 2) * 4096 + (y 1).val) :
    (iblk1 V c 1 t : Vec Ideal S256x4096 .f32) y = (V c main_arg1 : S256x4096.Idx → Elt Ideal .f32) i := by
  unfold iblk1
  rw [View.read_apply]
  show V c main_arg1 _ = V c main_arg1 _
  congr 1
  funext a
  apply Fin.ext
  match a with
  | ⟨0, _⟩ => show win1_1.index t (0 : Fin 2) * 256 + 1 * (y 0).val = (i 0).val; omega
  | ⟨1, _⟩ => show win1_1.index t (1 : Fin 2) * 4096 + 1 * (y 1).val = (i 1).val; omega

/-- The echo-trace window's block. -/
theorem iblk1_2_apply (c : Dev nD) (t : Fin cfg1.N) (y : S256x1024.Idx) (i : S256x4096.Idx)
    (h0 : (i 0).val = win1_2.index t (0 : Fin 2) * 256 + (y 0).val) (h1 : (i 1).val = win1_2.index t (1 : Fin 2) * 1024 + (y 1).val) :
    (iblk1 V c 2 t : Vec Ideal S256x1024 .f32) y = (V c main_arg2 : S256x4096.Idx → Elt Ideal .f32) i := by
  unfold iblk1
  rw [View.read_apply]
  show V c main_arg2 _ = V c main_arg2 _
  congr 1
  funext a
  apply Fin.ext
  match a with
  | ⟨0, _⟩ => show win1_2.index t (0 : Fin 2) * 256 + 1 * (y 0).val = (i 0).val; omega
  | ⟨1, _⟩ => show win1_2.index t (1 : Fin 2) * 1024 + 1 * (y 1).val = (i 1).val; omega

/-- The gathered-echo window's block. -/
theorem iblk1_3_apply (c : Dev nD) (t : Fin cfg1.N) (y : S256x1024.Idx) (i : S256x4096.Idx)
    (h0 : (i 0).val = win1_3.index t (0 : Fin 2) * 256 + (y 0).val) (h1 : (i 1).val = win1_3.index t (1 : Fin 2) * 1024 + (y 1).val) :
    (iblk1 V c 3 t : Vec Ideal S256x1024 .f32) y = (V c main_v7 : S256x4096.Idx → Elt Ideal .f32) i := by
  unfold iblk1
  rw [View.read_apply]
  show V c main_v7 _ = V c main_v7 _
  congr 1
  funext a
  apply Fin.ext
  match a with
  | ⟨0, _⟩ => show win1_3.index t (0 : Fin 2) * 256 + 1 * (y 0).val = (i 0).val; omega
  | ⟨1, _⟩ => show win1_3.index t (1 : Fin 2) * 1024 + 1 * (y 1).val = (i 1).val; omega

/-- The surrogate-derivative window's block. -/
theorem iblk1_4_apply (c : Dev nD) (t : Fin cfg1.N) (y : S256x1024.Idx) (i : S256x4096.Idx)
    (h0 : (i 0).val = win1_4.index t (0 : Fin 2) * 256 + (y 0).val) (h1 : (i 1).val = win1_4.index t (1 : Fin 2) * 1024 + (y 1).val) :
    (iblk1 V c 4 t : Vec Ideal S256x1024 .f32) y = (V c main_v0_1 : S256x4096.Idx → Elt Ideal .f32) i := by
  unfold iblk1
  rw [View.read_apply]
  show V c main_v0_1 _ = V c main_v0_1 _
  congr 1
  funext a
  apply Fin.ext
  match a with
  | ⟨0, _⟩ => show win1_4.index t (0 : Fin 2) * 256 + 1 * (y 0).val = (i 0).val; omega
  | ⟨1, _⟩ => show win1_4.index t (1 : Fin 2) * 1024 + 1 * (y 1).val = (i 1).val; omega

/-- The gate column's block (the whole column). -/
theorem iblk1_5_apply (c : Dev nD) (t : Fin cfg1.N) (y : S256x1.Idx) (i : S256x1.Idx)
    (h0 : (i 0).val = win1_5.index t (0 : Fin 2) * 256 + (y 0).val) (h1 : (i 1).val = win1_5.index t (1 : Fin 2) * 1 + (y 1).val) :
    (iblk1 V c 5 t : Vec Ideal S256x1 .f32) y = (V c main_v31 : S256x1.Idx → Elt Ideal .f32) i := by
  unfold iblk1
  rw [View.read_apply]
  show V c main_v31 _ = V c main_v31 _
  congr 1
  funext a
  apply Fin.ext
  match a with
  | ⟨0, _⟩ => show win1_5.index t (0 : Fin 2) * 256 + 1 * (y 0).val = (i 0).val; omega
  | ⟨1, _⟩ => show win1_5.index t (1 : Fin 2) * 1 + 1 * (y 1).val = (i 1).val; omega

/-- The weights window's block. -/
theorem iblk1_6_apply (c : Dev nD) (t : Fin cfg1.N) (y : S1024x1024.Idx) (i : S4096x4096.Idx)
    (h0 : (i 0).val = win1_6.index t (0 : Fin 2) * 1024 + (y 0).val) (h1 : (i 1).val = win1_6.index t (1 : Fin 2) * 1024 + (y 1).val) :
    (iblk1 V c 6 t : Vec Ideal S1024x1024 .f32) y = (V c main_arg4 : S4096x4096.Idx → Elt Ideal .f32) i := by
  unfold iblk1
  rw [View.read_apply]
  show V c main_arg4 _ = V c main_arg4 _
  congr 1
  funext a
  apply Fin.ext
  match a with
  | ⟨0, _⟩ => show win1_6.index t (0 : Fin 2) * 1024 + 1 * (y 0).val = (i 0).val; omega
  | ⟨1, _⟩ => show win1_6.index t (1 : Fin 2) * 1024 + 1 * (y 1).val = (i 1).val; omega

/-! ## One point's stored block, over variables -/

/-- A load through the body's column slice reads the buffer at column 1024 · l + k. -/
theorem ld_colSlice1 (x : Vec Ideal S256x4096 .f32) (i : grid1.Coords) (l : Nat) (hl : l < 4) (hoff : k1_off1 i = ![0, 1024 * l])
    (b : Fin 256) (k : Fin 1024) :
    View.ld x (colSlice1 i) (ix2 b k) = x (ix2 b ⟨1024 * l + k.val, by omega⟩) := by
  show x ((colSlice1 i).idx (ix2 b k)) = _
  congr 1
  funext a
  apply Fin.ext
  match a with
  | ⟨0, _⟩ => show k1_off1 i 0 + 1 * b.val = b.val; rw [hoff]; show 0 + 1 * b.val = b.val; omega
  | ⟨1, _⟩ => show k1_off1 i 1 + 1 * k.val = 1024 * l + k.val; rw [hoff]; show 1024 * l + 1 * k.val = 1024 * l + k.val; omega

/-- With the two resident buffers holding the whole arrays X and IT, the gate buffer the whole column DL, the three
    [256, 1024] buffers the tiles n of EP, EN, SU and the weights' buffer the tile (n, l) of Wt, and the body's column
    offset at 1024 · l, the body's stored block at (j, k) is the specification's update of those arrays at row
    1024 · n + j and column 1024 · l + k. -/
theorem out1_7_apply (X IT EP EN SU : FVec Ideal S256x4096 .f32) (DL : FVec Ideal S256x1 .f32) (Wt : FVec Ideal S4096x4096 .f32)
    (i : grid1.Coords) (n l : Nat) (hn : n < 4) (hl : l < 4) (hoff : k1_off1 i = ![0, 1024 * l])
    (x2 x3 x4 : Vec Ideal S256x1024 .f32) (x6 : Vec Ideal S1024x1024 .f32)
    (h2 : ∀ (b : Fin 256) (j : Fin 1024), x2 (ix2 b j) = EP (ix2 b ⟨1024 * n + j.val, by omega⟩))
    (h3 : ∀ (b : Fin 256) (j : Fin 1024), x3 (ix2 b j) = EN (ix2 b ⟨1024 * n + j.val, by omega⟩))
    (h4 : ∀ (b : Fin 256) (j : Fin 1024), x4 (ix2 b j) = SU (ix2 b ⟨1024 * n + j.val, by omega⟩))
    (h6 : ∀ (j k : Fin 1024), x6 (ix2 j k) = Wt (ix2 ⟨1024 * n + j.val, by omega⟩ ⟨1024 * l + k.val, by omega⟩))
    (j k : Fin 1024) :
    out1_7 i X IT x2 x3 x4 DL x6 (ix2 j k)
      = Cert.Spec.update (F := Ideal) X IT EP EN SU DL Wt (ix2 ⟨1024 * n + j.val, by omega⟩ ⟨1024 * l + k.val, by omega⟩) := by
  unfold out1_7
  rw [View.canon_unit_zero zeros2]
  simp only [View.ld_unit_zero (S := S256x1024) zeros2, View.ld_unit_zero (S := S256x1) zeros2, View.ld_unit_zero (S := S1024x1024) zeros2]
  rw [updatePay_apply, Cert.SpecRead.update_apply, h6]
  congr 3
  refine Finset.sum_congr rfl fun b _ => ?_
  rw [ld_colSlice1 X i l hl hoff, ld_colSlice1 IT i l hl hoff, h2, h3, h4]

/-! ## What a point writes back -/

/-- The specification's update of the arrays the region was entered with. -/
abbrev upd1 (c : Dev nD) : S4096x4096.Idx → Elt Ideal .f32 :=
  Cert.Spec.update (F := Ideal) (V c main_arg0) (V c main_arg1) (V c main_arg2) (V c main_v7) (V c main_v0_1) (V c main_v31) (V c main_arg4)

/-- What point t writes back is block t of the specification's update. -/
theorem flushed1_7_eq (c : Dev nD) (t : Fin cfg1.N) :
    (dat1 V c).flushed 7 t = ((cfg1.win 7).blk t).view.read (Elt Ideal) (upd1 V c) := by
  show (cfg1.win 7).cut (grid1.coords t) ((dat1 V c).after 7 t) = _
  rw [after1_7]
  obtain ⟨a00, a01, a10, a11, a20, a21, a30, a31, a40, a41, a50, a51, a60, a61, hoff, hn, hl⟩ := idx_facts1 t
  have e0 : (iblk1 V c 0 t : Vec Ideal S256x4096 .f32) = V c main_arg0 :=
    funext fun y => iblk1_0_apply V c t y y (by rw [a00]; omega) (by rw [a01]; omega)
  have e1 : (iblk1 V c 1 t : Vec Ideal S256x4096 .f32) = V c main_arg1 :=
    funext fun y => iblk1_1_apply V c t y y (by rw [a10]; omega) (by rw [a11]; omega)
  have e5 : (iblk1 V c 5 t : Vec Ideal S256x1 .f32) = V c main_v31 :=
    funext fun y => iblk1_5_apply V c t y y (by rw [a50]; omega) (by rw [a51]; omega)
  funext y
  obtain ⟨j, k, rfl⟩ : ∃ (j k : Fin 1024), (y : S1024x1024.Idx) = ix2 j k := ⟨y 0, y 1, eq_ix2 y⟩
  have hj : j.val < 1024 := j.isLt
  have hk : k.val < 1024 := k.isLt
  rw [View.read_apply]
  have hemb : ((cfg1.win 7).blk t).view.emb (ix2 j k)
      = (ix2 ⟨1024 * win1_7.index t (0 : Fin 2) + j.val, by omega⟩ ⟨1024 * win1_7.index t (1 : Fin 2) + k.val, by omega⟩ : S4096x4096.Idx) := by
    funext a
    apply Fin.ext
    match a with
    | ⟨0, _⟩ => show win1_7.index t (0 : Fin 2) * 1024 + 1 * j.val = 1024 * win1_7.index t (0 : Fin 2) + j.val; omega
    | ⟨1, _⟩ => show win1_7.index t (1 : Fin 2) * 1024 + 1 * k.val = 1024 * win1_7.index t (1 : Fin 2) + k.val; omega
  show out1_7 (grid1.coords t) (iblk1 V c 0 t) (iblk1 V c 1 t) (iblk1 V c 2 t) (iblk1 V c 3 t) (iblk1 V c 4 t) (iblk1 V c 5 t)
      (iblk1 V c 6 t) (ix2 j k) = upd1 V c (((cfg1.win 7).blk t).view.emb (ix2 j k))
  rw [hemb, e0, e1, e5]
  exact out1_7_apply (V c main_arg0) (V c main_arg1) (V c main_arg2) (V c main_v7) (V c main_v0_1) (V c main_v31) (V c main_arg4)
    (grid1.coords t) (win1_7.index t (0 : Fin 2)) (win1_7.index t (1 : Fin 2)) hn hl hoff
    (iblk1 V c 2 t) (iblk1 V c 3 t) (iblk1 V c 4 t) (iblk1 V c 6 t)
    (fun b j' => iblk1_2_apply V c t (ix2 b j') _ (by show b.val = win1_2.index t (0 : Fin 2) * 256 + b.val; rw [a20]; omega)
      (by show 1024 * win1_7.index t (0 : Fin 2) + j'.val = win1_2.index t (1 : Fin 2) * 1024 + j'.val; rw [a21]; omega))
    (fun b j' => iblk1_3_apply V c t (ix2 b j') _ (by show b.val = win1_3.index t (0 : Fin 2) * 256 + b.val; rw [a30]; omega)
      (by show 1024 * win1_7.index t (0 : Fin 2) + j'.val = win1_3.index t (1 : Fin 2) * 1024 + j'.val; rw [a31]; omega))
    (fun b j' => iblk1_4_apply V c t (ix2 b j') _ (by show b.val = win1_4.index t (0 : Fin 2) * 256 + b.val; rw [a40]; omega)
      (by show 1024 * win1_7.index t (0 : Fin 2) + j'.val = win1_4.index t (1 : Fin 2) * 1024 + j'.val; rw [a41]; omega))
    (fun j' k' => iblk1_6_apply V c t (ix2 j' k') _
      (by show 1024 * win1_7.index t (0 : Fin 2) + j'.val = win1_6.index t (0 : Fin 2) * 1024 + j'.val; rw [a60]; omega)
      (by show 1024 * win1_7.index t (1 : Fin 2) + k'.val = win1_6.index t (1 : Fin 2) * 1024 + k'.val; rw [a61]; omega))
    j k

end Cert.KernelIdeal.Hand

end
-- ==== Proof.R1Value.lean ====
/-
  Region 1 (the weight update): the result array after the region is the specification's update.

  Every point writes its [1024, 1024] block back, and what it writes is its block of the specification's update of
  the arrays the region was entered with. The sixteen blocks tile the [4096, 4096] result — entry (p, q) lies in the
  block with block row p / 1024 and block column q / 1024 —, so after the last point the array holds that update at
  every index.
-/
import proofs.«178930_j11708080849226_2_alg».proof.Proof.R1ValueBlocks

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

-- the buffer contents when the region is entered
variable (V : (c : Dev nD) → (b : Ref sig .tc) → Buf (Elt Ideal) ((c : Thread nD τ).loc b))

/-- An index of the result is in point t's block iff each coordinate is in the block's range on its axis. -/
theorem mem_blk1_7 (t : Fin cfg1.N) (i : S4096x4096.Idx) :
    i ∈ ((cfg1.win 7).blk t).view.set ↔ ∀ a : Fin 2, win1_7.index t a * S1024x1024.size a ≤ (i a).val
      ∧ (i a).val < win1_7.index t a * S1024x1024.size a + S1024x1024.size a := by
  show i ∈ ((View.whole main_v32).slice (win1_7.rect t)).set ↔ _
  rw [View.set_slice_whole, Rect.mem_set_unit]
  exact Iff.rfl

/-- The sixteen blocks tile the result: (p, q) is in the block of the point with block row p / 1024 and block column
    q / 1024, and every point writes its block back. -/
theorem covered1_7 (i : S4096x4096.Idx) : ∃ t : Fin cfg1.N, (cfg1.win 7).flush t = true ∧ i ∈ ((cfg1.win 7).blk t).view.set := by
  have hi0 : (i 0).val < 4096 := (i 0).isLt
  have hi1 : (i 1).val < 4096 := (i 1).isLt
  obtain ⟨t, ht⟩ := idx_onto1 ⟨(i 0).val / 1024, by omega⟩ ⟨(i 1).val / 1024, by omega⟩
  have q0 : win1_7.index t (0 : Fin 2) = (i 0).val / 1024 := congrFun ht 0
  have q1 : win1_7.index t (1 : Fin 2) = (i 1).val / 1024 := congrFun ht 1
  refine ⟨t, flush1_7 t, ?_⟩
  rw [mem_blk1_7]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 1024 ≤ (i 1).val ∧ (i 1).val < win1_7.index t (1 : Fin 2) * 1024 + 1024; omega

/-- After the region the result array is the specification's update of the arrays the region was entered with. -/
theorem final1 (c : Dev nD) :
    (dat1 (F := Ideal) V c).arrAt 7 cfg1.N
      = Cert.Spec.update (F := Ideal) (V c main_arg0) (V c main_arg1) (V c main_arg2) (V c main_v7) (V c main_v0_1) (V c main_v31) (V c main_arg4) :=
  (dat1 V c).arrAt_eq_of_cover 7 (upd1 V c) (fun t _ => flushed1_7_eq V c t) covered1_7

end Cert.KernelIdeal.Hand

end
-- ==== Proof.Bridge.lean ====
/-
  The kernel computes the specification.

  Region 1's output array, after the whole run, is the update function of the arrays region 1 was entered with. Those
  are: four arguments, untouched since the launch; the gathered echo and the gate column, which the host operations
  computed from the echo trace, the row numbers, the activity and region 0's spikes; and region 0's surrogate derivative.
  Region 0's two outputs are the specification's spikes and surrogate derivative of the launch contents. Composing, the
  result buffer holds the specification of the seven arguments.
-/
import proofs.«178930_j11708080849226_2_alg».proof.Proof.Run
import proofs.«178930_j11708080849226_2_alg».proof.Proof.Glue
import proofs.«178930_j11708080849226_2_alg».proof.Proof.R0Value
import proofs.«178930_j11708080849226_2_alg».proof.Proof.R1Value

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Region 0's spikes, as region 0 leaves them, are the specification's. -/
theorem spikes_eq : W1 m c (Proc.devRef .tc main_v0_0)
    = Cert.Spec.spikes (F := Ideal) (m ((c.tc : Thread nD τ).loc main_arg0)) (m ((c.tc : Thread nD τ).loc main_arg4)) (m ((c.tc : Thread nD τ).loc main_arg3)) :=
  (W1_arr m c 3).trans (final0_3 (E0 m) c)

/-- Region 0's surrogate derivative reaches region 1 unchanged and is the specification's. -/
theorem surr_eq : E6 m c main_v0_1
    = Cert.Spec.surr (F := Ideal) (m ((c.tc : Thread nD τ).loc main_arg0)) (m ((c.tc : Thread nD τ).loc main_arg4)) (m ((c.tc : Thread nD τ).loc main_arg3)) :=
  (W6_main_v0_1 m c).trans (final0_4 (E0 m) c)

/-- The gathered echo region 1 is entered with. -/
theorem echoNeg_eq : E6 m c main_v7
    = Cert.Spec.echoNeg (F := Ideal) (m ((c.tc : Thread nD τ).loc main_arg2)) (m ((c.tc : Thread nD τ).loc main_arg6)) :=
  (afterHost_echoNeg (W1 m c)).trans (by rw [W1_main_arg2, W1_main_arg6])

/-- The gate column region 1 is entered with. -/
theorem gate_eq : E6 m c main_v31
    = Cert.Spec.gate (F := Ideal) (Cert.Spec.spikes (F := Ideal) (m ((c.tc : Thread nD τ).loc main_arg0)) (m ((c.tc : Thread nD τ).loc main_arg4)) (m ((c.tc : Thread nD τ).loc main_arg3)))
        (m ((c.tc : Thread nD τ).loc main_arg2)) (Cert.Spec.echoNeg (F := Ideal) (m ((c.tc : Thread nD τ).loc main_arg2)) (m ((c.tc : Thread nD τ).loc main_arg6))) (m ((c.tc : Thread nD τ).loc main_arg5)) :=
  (afterHost_gate (W1 m c)).trans (by rw [spikes_eq, W1_main_arg2, W1_main_arg6, W1_main_arg5])

/-- THE KERNEL'S VALUE: the result buffer after the run is the specification of the launch contents of the arguments. -/
theorem kernel_value :
    (dat1 (F := Ideal) (E6 m) c).arrAt 7 cfg1.N
      = Cert.Spec.whole (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  rw [final1 (E6 m) c]
  unfold Cert.Spec.whole
  rw [show E6 m c main_arg0 = (m ((c.tc : Thread nD τ).loc main_arg0)) from W6_main_arg0 m c,
    show E6 m c main_arg1 = (m ((c.tc : Thread nD τ).loc main_arg1)) from W6_main_arg1 m c,
    show E6 m c main_arg2 = (m ((c.tc : Thread nD τ).loc main_arg2)) from W6_main_arg2 m c,
    show E6 m c main_arg4 = (m ((c.tc : Thread nD τ).loc main_arg4)) from W6_main_arg4 m c,
    echoNeg_eq, surr_eq, gate_eq]

end Cert.KernelIdeal.Hand

end
-- ==== Proof.RefSpec.lean ====
/-
  The reference's result is the specification of the seven arguments: its composed term, unfolded, is `Spec.whole`.
-/
import proofs.«178930_j11708080849226_2_alg».proof.Proof.Spec
import proofs.«178930_j11708080849226_2_alg».proof.Proof.Gen.ReferenceIdeal.Run

set_option maxRecDepth 16384

noncomputable section

namespace Cert.RefSpec

open Idealize.ShloMosaic Idealize.ShloMosaic.TcCoe Idealize.SL.Sem Cert.ReferenceIdeal

variable {F : FTy → Type} [FloatOps F]

/-- The reference's result buffer after its run, as the specification of the launch contents of its arguments. -/
theorem result_eq (m : (ℓ : Loc nD τ sig) → Buf (Elt F) ℓ) (c : Dev nD) :
    Cert.ReferenceIdeal.Value.res_main_v61 m c
      = Cert.Spec.whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v61 Cert.Spec.whole Cert.Spec.update Cert.Spec.gate Cert.Spec.loss Cert.Spec.echoNeg
    Cert.Spec.surr Cert.Spec.spikes Cert.Spec.memOut
  rfl

end Cert.RefSpec

end
-- ==== Proof.lean ====
/-
  The certificate: a two-kernel weight update against its plain reference.

  The kernel program runs two pipelined kernels with host operations between them. The first accumulates the product
  x · Wᵀ over four column tiles in a scratch block carried across grid points and, at the last tile, turns the membrane
  β · mem + x · Wᵀ into the spikes [membrane > 1] and the surrogate derivative 1 / (1 + (π (membrane − 1))²). The host
  operations gather the echo trace at the negative samples and reduce the spikes to a gate column. The second kernel
  forms, tile by tile, W − lr · ((−gate · (echo − gathered echo) · surrogate)ᵀ · (β · trace + x)) / 2²⁰.

  Frames: each kernel's body is run symbolically at every grid point (the first kernel in its three control cases, its
  scratch block carried in the region's invariant), the regions and host stretches are chained through the buffer
  contents at each boundary, and every argument array is read back unchanged at the end — once for any float instance,
  cited at the word-level instance and at the extended reals. The reference's frame is its run with the result dropped.

  The idealization rewrote no operation, so that conjunct is trivial.

  Values, on the extended reals: the reference's result is, by unfolding, the specification (the reference's own stages
  as whole-array functions of the seven arguments); the kernel's result buffer is the same function, because the
  tile-by-tile accumulation is the whole contraction regrouped (associativity and commutativity of the sum only, so no
  finiteness is used), a one-bit indicator converts to the same 0 or 1 signed or unsigned, 0 − v is −v, and every other
  operation is the reference's own, entry by entry.
-/
import proofs.«178930_j11708080849226_2_alg».proof.Defs
import proofs.«178930_j11708080849226_2_alg».proof.Proof.Gen.Kernel
import proofs.«178930_j11708080849226_2_alg».proof.Proof.Gen.KernelIdeal
import proofs.«178930_j11708080849226_2_alg».proof.Proof.Gen.ReferenceIdeal
import proofs.«178930_j11708080849226_2_alg».proof.Proof.Gen.Pre_finite_inputs
import proofs.«178930_j11708080849226_2_alg».proof.Proof.Gen.ReferenceIdeal.Run
import Idealize.ShloMosaic.Adequacy
import Idealize.ShloMosaic.Init
import proofs.«178930_j11708080849226_2_alg».proof.Proof.KRun
import proofs.«178930_j11708080849226_2_alg».proof.Proof.Run
import proofs.«178930_j11708080849226_2_alg».proof.Proof.Bridge
import proofs.«178930_j11708080849226_2_alg».proof.Proof.RefSpec

noncomputable section

namespace Cert.Proof

open Idealize.ShloMosaic Idealize.ShloMosaic.TcCoe Idealize.SL.Sem

/-- The word-level kernel program terminates, faults nowhere, and leaves its arguments as launched. -/
theorem frame_k : Cert.frame_Kernel := fun m ρ _ => Cert.Kernel.Hand.frame m ρ

/-- The same program read on the extended reals. -/
theorem frame_ki : Cert.frame_KernelIdeal := fun m ρ _ => Cert.KernelIdeal.Hand.frame m ρ

/-- The reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the arguments, both programs end with the specification of the
    arguments in their result buffers. -/
theorem algebraic : Cert.algebraic_KernelIdeal_ReferenceIdeal := by
  intro m ρ m' ρ' _ hagree
  refine ⟨fun c => (Cert.KernelIdeal.Hand.dat1 (F := Ideal) (Cert.KernelIdeal.Hand.E6 m) c).arrAt 7 Cert.KernelIdeal.cfg1.N,
    Cert.KernelIdeal.Hand.result m ρ, ?_⟩
  refine (θ_run Cert.ReferenceIdeal.defs _ _).mono (fun _ h c => ⟨(h c).1.trans ?_, (h c).2⟩)
    (Cert.ReferenceIdeal.Value.run (F := Ideal) m' ρ')
  refine (Cert.RefSpec.result_eq m' c).trans (Eq.trans ?_ (Cert.KernelIdeal.Hand.kernel_value m c).symm)
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
